-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x256 : Shape := ⟨2, ![256, 256]⟩
abbrev S256x512x512 : Shape := ⟨3, ![256, 512, 512]⟩
abbrev S512x200 : Shape := ⟨2, ![512, 200]⟩
abbrev S200 : Shape := ⟨1, ![200]⟩
abbrev S200x20 : Shape := ⟨2, ![200, 20]⟩
abbrev S20 : Shape := ⟨1, ![20]⟩
abbrev S20x2 : Shape := ⟨2, ![20, 2]⟩
abbrev S2 : Shape := ⟨1, ![2]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x512x512 : S_.BroadcastsInDim S256x512x512 (![] : Fin 0 → Fin S256x512x512.rank)
  reducesTo_S256x512x512_S_d0_1_2 : S256x512x512.ReducesTo [0, 1, 2] S_
  bcast_S_S512x200 : S_.BroadcastsInDim S512x200 (![] : Fin 0 → Fin S512x200.rank)
  reducesTo_S512x200_S_d0_1 : S512x200.ReducesTo [0, 1] S_
  bcast_S_S200 : S_.BroadcastsInDim S200 (![] : Fin 0 → Fin S200.rank)
  reducesTo_S200_S_d0 : S200.ReducesTo [0] S_
  bcast_S_S200x20 : S_.BroadcastsInDim S200x20 (![] : Fin 0 → Fin S200x20.rank)
  reducesTo_S200x20_S_d0_1 : S200x20.ReducesTo [0, 1] S_
  bcast_S_S20 : S_.BroadcastsInDim S20 (![] : Fin 0 → Fin S20.rank)
  reducesTo_S20_S_d0 : S20.ReducesTo [0] S_
  bcast_S_S20x2 : S_.BroadcastsInDim S20x2 (![] : Fin 0 → Fin S20x2.rank)
  reducesTo_S20x2_S_d0_1 : S20x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S20 .f32) (main_arg8 : FVec F S20x2 .f32) (main_arg9 : FVec F S2 .f32) (main_v33 : IVec S_ 1) : IVec S_ 1 :=
  let main_v34 : FVec F S20 .f32 := Host.absf main_arg7
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20x2 .f32 := Host.absf main_arg8
  let main_cst_14 : FVec F S_ .f32 := constant S_ .f32 0x7F800000#32
  let main_v40 : FVec F S20x2 .f32 := broadcastInDim S20x2 ![] bcast_S_S20x2 main_cst_14
  let main_v41 : IVec S20x2 1 := cmpf .olt main_v39 main_v40
  let main_c_15 : IVec S_ 1 := constantI S_ 1 1#1
  let main_v42 : IVec S_ 1 := (fun x v => Host.reduce IntOp.andi x v reducesTo_S20x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S512x200 .f32) (main_arg5 : FVec F S200 .f32) (main_arg6 : FVec F S200x20 .f32) (main_arg7 : FVec F S20 .f32) (main_arg8 : FVec F S20x2 .f32) (main_arg9 : FVec F S2 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x200 .f32 := Host.absf main_arg4
  let main_cst_6 : FVec F S_ .f32 := constant S_ .f32 0x7F800000#32
  let main_v20 : FVec F S512x200 .f32 := broadcastInDim S512x200 ![] bcast_S_S512x200 main_cst_6
  let main_v21 : IVec S512x200 1 := cmpf .olt main_v19 main_v20
  let main_c_7 : IVec S_ 1 := constantI S_ 1 1#1
  let main_v22 : IVec S_ 1 := (fun x v => Host.reduce IntOp.andi x v reducesTo_S512x200_S_d0_1 h_S_) main_v21 main_c_7
  let main_v23 : IVec S_ 1 := andi main_v18 main_v22
  let main_v24 : FVec F S200 .f32 := Host.absf main_arg5
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S200x20 .f32 := Host.absf main_arg6
  let main_cst_10 : FVec F S_ .f32 := constant S_ .f32 0x7F800000#32
  let main_v30 : FVec F S200x20 .f32 := broadcastInDim S200x20 ![] bcast_S_S200x20 main_cst_10
  let main_v31 : IVec S200x20 1 := cmpf .olt main_v29 main_v30
  let main_c_11 : IVec S_ 1 := constantI S_ 1 1#1
  let main_v32 : IVec S_ 1 := (fun x v => Host.reduce IntOp.andi x v reducesTo_S200x20_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x512 .f32) (main_arg1 : FVec F S256x256 .f32) (main_arg2 : FVec F S256x512x512 .f32) (main_arg3 : FVec F S256x512 .f32) (main_arg4 : FVec F S512x200 .f32) (main_arg5 : FVec F S200 .f32) (main_arg6 : FVec F S200x20 .f32) (main_arg7 : FVec F S20 .f32) (main_arg8 : FVec F S20x2 .f32) (main_arg9 : FVec F S2 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x512x512 .f32 := Host.absf main_arg2
  let main_cst_2 : FVec F S_ .f32 := constant S_ .f32 0x7F800000#32
  let main_v10 : FVec F S256x512x512 .f32 := broadcastInDim S256x512x512 ![] bcast_S_S256x512x512 main_cst_2
  let main_v11 : IVec S256x512x512 1 := cmpf .olt main_v9 main_v10
  let main_c_3 : IVec S_ 1 := constantI S_ 1 1#1
  let main_v12 : IVec S_ 1 := (fun x v => Host.reduce IntOp.andi x v reducesTo_S256x512x512_S_d0_1_2 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_v13 main_v16
-- ==== Kernel.lean ====
abbrev S256x512 : Shape := ⟨2, ![256, 512]⟩
abbrev S256x256 : Shape := ⟨2, ![256, 256]⟩
abbrev S256x512x512 : Shape := ⟨3, ![256, 512, 512]⟩
abbrev S512x200 : Shape := ⟨2, ![512, 200]⟩
abbrev S200 : Shape := ⟨1, ![200]⟩
abbrev S200x20 : Shape := ⟨2, ![200, 20]⟩
abbrev S20 : Shape := ⟨1, ![20]⟩
abbrev S20x2 : Shape := ⟨2, ![20, 2]⟩
abbrev S2 : Shape := ⟨1, ![2]⟩
abbrev S256x256x1 : Shape := ⟨3, ![256, 256, 1]⟩
abbrev S256x1x512 : Shape := ⟨3, ![256, 1, 512]⟩
abbrev S256x256x2 : Shape := ⟨3, ![256, 256, 2]⟩
abbrev S8x256x1 : Shape := ⟨3, ![8, 256, 1]⟩
abbrev S8x1x512 : Shape := ⟨3, ![8, 1, 512]⟩
abbrev S8x512x512 : Shape := ⟨3, ![8, 512, 512]⟩
abbrev S8x256x2 : Shape := ⟨3, ![8, 256, 2]⟩
abbrev S1x256x1 : Shape := ⟨3, ![1, 256, 1]⟩
abbrev S256x1 : Shape := ⟨2, ![256, 1]⟩
abbrev S1x512x512 : Shape := ⟨3, ![1, 512, 512]⟩
abbrev S512x512 : Shape := ⟨2, ![512, 512]⟩
abbrev S1x1x512 : Shape := ⟨3, ![1, 1, 512]⟩
abbrev S512 : Shape := ⟨1, ![512]⟩
abbrev S1x512 : Shape := ⟨2, ![1, 512]⟩
abbrev S256x200 : Shape := ⟨2, ![256, 200]⟩
abbrev S1x200 : Shape := ⟨2, ![1, 200]⟩
abbrev S256x20 : Shape := ⟨2, ![256, 20]⟩
abbrev S1x20 : Shape := ⟨2, ![1, 20]⟩
abbrev S256x2 : Shape := ⟨2, ![256, 2]⟩
abbrev S1x2 : Shape := ⟨2, ![1, 2]⟩
abbrev S256 : Shape := ⟨1, ![256]⟩
abbrev S1x256x2 : Shape := ⟨3, ![1, 256, 2]⟩
abbrev S65536x2 : Shape := ⟨2, ![65536, 2]⟩

abbrev nBuf : Space → Nat
  | .hbm => 17
  | .vmem => 15
  | .smem => 0
  | _ => 0

abbrev bufTy : (tb : Table) → Fin (tcTables nBuf tb) → BufTy
  | .hbm, ⟨0, _⟩ => ⟨S256x512, .f32⟩
  | .hbm, ⟨1, _⟩ => ⟨S256x256, .f32⟩
  | .hbm, ⟨2, _⟩ => ⟨S256x512x512, .f32⟩
  | .hbm, ⟨3, _⟩ => ⟨S256x512, .f32⟩
  | .hbm, ⟨4, _⟩ => ⟨S512x200, .f32⟩
  | .hbm, ⟨5, _⟩ => ⟨S200, .f32⟩
  | .hbm, ⟨6, _⟩ => ⟨S200x20, .f32⟩
  | .hbm, ⟨7, _⟩ => ⟨S20, .f32⟩
  | .hbm, ⟨8, _⟩ => ⟨S20x2, .f32⟩
  | .hbm, ⟨9, _⟩ => ⟨S2, .f32⟩
  | .hbm, ⟨10, _⟩ => ⟨S256x256x1, .f32⟩
  | .hbm, ⟨11, _⟩ => ⟨S256x1x512, .f32⟩
  | .hbm, ⟨12, _⟩ => ⟨S512x200, .bf16⟩
  | .hbm, ⟨13, _⟩ => ⟨S200x20, .bf16⟩
  | .hbm, ⟨14, _⟩ => ⟨S20x2, .bf16⟩
  | .hbm, ⟨15, _⟩ => ⟨S256x256x2, .f32⟩
  | .hbm, ⟨16, _⟩ => ⟨S65536x2, .f32⟩
  | .local _ .vmem, ⟨0, _⟩ => ⟨S256x512, .f32⟩
  | .local _ .vmem, ⟨1, _⟩ => ⟨S8x256x1, .f32⟩
  | .local _ .vmem, ⟨2, _⟩ => ⟨S8x256x1, .f32⟩
  | .local _ .vmem, ⟨3, _⟩ => ⟨S8x1x512, .f32⟩
  | .local _ .vmem, ⟨4, _⟩ => ⟨S8x1x512, .f32⟩
  | .local _ .vmem, ⟨5, _⟩ => ⟨S8x512x512, .f32⟩
  | .local _ .vmem, ⟨6, _⟩ => ⟨S8x512x512, .f32⟩
  | .local _ .vmem, ⟨7, _⟩ => ⟨S512x200, .bf16⟩
  | .local _ .vmem, ⟨8, _⟩ => ⟨S200, .f32⟩
  | .local _ .vmem, ⟨9, _⟩ => ⟨S200x20, .bf16⟩
  | .local _ .vmem, ⟨10, _⟩ => ⟨S20, .f32⟩
  | .local _ .vmem, ⟨11, _⟩ => ⟨S20x2, .bf16⟩
  | .local _ .vmem, ⟨12, _⟩ => ⟨S2, .f32⟩
  | .local _ .vmem, ⟨13, _⟩ => ⟨S8x256x2, .f32⟩
  | .local _ .vmem, ⟨14, _⟩ => ⟨S8x256x2, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v11 : Index := Scalar.indexCast arg12
  let c0_11 : Index := 0#32
  let c0_12 : Index := 0#32
  ![v11.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v17 : Index := Scalar.indexCast arg12
  let c0_13 : Index := 0#32
  let c0_14 : Index := 0#32
  ![v17.toNat, 0, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v22 : Index := Scalar.indexCast arg12
  let c0_15 : Index := 0#32
  let c0_16 : Index := 0#32
  ![v22.toNat, 0, 0]
def k0_off4 (k0_t1 : Fin k0_t1_loop.trips) : Fin 3 → Nat :=
  let c0_i32 : BitVec 32 := 0#32
  let c1_i32 : BitVec 32 := 1#32
  let arg12 : BitVec 32 := Scf.iv c0_i32 c1_i32 k0_t1
  let v72 : Index := Scalar.indexCast arg12
  let c0_30 : Index := 0#32
  let c0_31 : Index := 0#32
  ![v72.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x20 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x256x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S256x256_S256x256x1_0_1 : S256x256.BroadcastsInDim S256x256x1 (![0, 1] : Fin 2 → Fin S256x256x1.rank)
  bcast_S256x512_S256x1x512_0_2 : S256x512.BroadcastsInDim S256x1x512 (![0, 2] : Fin 2 → Fin S256x1x512.rank)
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512x200_S512x200_0_0 : ∀ a, (![0, 0] : Fin 2 → Nat) a + S512x200.size a ≤ S512x200.size a
  h_S512x200 : 0 < S512x200.numel
  shapeCasts_S512x200_S512x200 : S512x200.ShapeCasts S512x200
  inb_S200_S200_0 : ∀ a, (![0] : Fin 1 → Nat) a + S200.size a ≤ S200.size a
  h_S200 : 0 < S200.numel
  inb_S200x20_S200x20_0_0 : ∀ a, (![0, 0] : Fin 2 → Nat) a + S200x20.size a ≤ S200x20.size a
  h_S200x20 : 0 < S200x20.numel
  shapeCasts_S200x20_S200x20 : S200x20.ShapeCasts S200x20
  inb_S20_S20_0 : ∀ a, (![0] : Fin 1 → Nat) a + S20.size a ≤ S20.size a
  h_S20 : 0 < S20.numel
  inb_S20x2_S20x2_0_0 : ∀ a, (![0, 0] : Fin 2 → Nat) a + S20x2.size a ≤ S20x2.size a
  h_S20x2 : 0 < S20x2.numel
  shapeCasts_S20x2_S20x2 : S20x2.ShapeCasts S20x2
  inb_S2_S2_0 : ∀ a, (![0] : Fin 1 → Nat) a + S2.size a ≤ S2.size a
  h_S2 : 0 < S2.numel
  h_S1x256x1 : 0 < S1x256x1.numel
  shapeCasts_S1x256x1_S256x1 : S1x256x1.ShapeCasts S256x1
  broadcasts_S256x1_S256x512 : S256x1.Broadcasts S256x512
  h_S1x512x512 : 0 < S1x512x512.numel
  shapeCasts_S1x512x512_S512x512 : S1x512x512.ShapeCasts S512x512
  h_S1x1x512 : 0 < S1x1x512.numel
  shapeCasts_S1x1x512_S512 : S1x1x512.ShapeCasts S512
  shapeCasts_S512_S1x512 : S512.ShapeCasts S1x512
  broadcasts_S1x512_S256x512 : S1x512.Broadcasts S256x512
  shapeCasts_S200_S1x200 : S200.ShapeCasts S1x200
  broadcasts_S1x200_S256x200 : S1x200.Broadcasts S256x200
  shapeCasts_S20_S1x20 : S20.ShapeCasts S1x20
  broadcasts_S1x20_S256x20 : S1x20.Broadcasts S256x20
  shapeCasts_S2_S1x2 : S2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  h_S1x256x2 : 0 < S1x256x2.numel
  shapeCasts_S1x256x2_S256x2 : S1x256x2.ShapeCasts S256x2
  shapeCasts_S256x2_S1x256x2 : S256x2.ShapeCasts S1x256x2
  shapeCasts_S256x256x2_S65536x2 : S256x256x2.ShapeCasts S65536x2
  dot_S256x512_S512x512_S256x512_1_0_0_1_n_n_wf : DotDims.WF S256x512 S512x512 S256x512 [1] [0] [0] [1] [] []
  dot_S256x512_S512x200_S256x200_1_0_0_1_n_n_wf : DotDims.WF S256x512 S512x200 S256x200 [1] [0] [0] [1] [] []
  dot_S256x200_S200x20_S256x20_1_0_0_1_n_n_wf : DotDims.WF S256x200 S200x20 S256x20 [1] [0] [0] [1] [] []
  dot_S256x20_S20x2_S256x2_1_0_0_1_n_n_wf : DotDims.WF S256x20 S20x2 S256x2 [1] [0] [0] [1] [] []
  hrank0 : 0 < grid0.rank
  k0_t1_ok : k0_t1_loop.OK
  k0_off1_inb : ∀ k0_t1 : Fin k0_t1_loop.trips, ∀ a, (k0_off1 k0_t1) a + S1x256x1.size a ≤ S8x256x1.size a
  k0_off2_inb : ∀ k0_t1 : Fin k0_t1_loop.trips, ∀ a, (k0_off2 k0_t1) a + S1x512x512.size a ≤ S8x512x512.size a
  k0_off3_inb : ∀ k0_t1 : Fin k0_t1_loop.trips, ∀ a, (k0_off3 k0_t1) a + S1x1x512.size a ≤ S8x1x512.size a
  k0_off4_inb : ∀ k0_t1 : Fin k0_t1_loop.trips, ∀ a, (k0_off4 k0_t1) a + S1x256x2.size a ≤ S8x256x2.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1.size a ≤ S256x256x1.size a
  hwx0_1 : ∀ i : grid0.Coords, EltTy.bits .f32 = 32 ∨ (Rect.block (s := S256x256x1) S8x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x512.size a ≤ S256x1x512.size a
  hwx0_2 : ∀ i : grid0.Coords, EltTy.bits .f32 = 32 ∨ (Rect.block (s := S256x1x512) S8x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S256x512x512.size a
  hwx0_3 : ∀ i : grid0.Coords, EltTy.bits .f32 = 32 ∨ (Rect.block (s := S256x512x512) S8x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x200.size a ≤ S512x200.size a
  hwx0_4 : ∀ i : grid0.Coords, EltTy.bits .bf16 = 32 ∨ (Rect.block (s := S512x200) S512x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200.size a ≤ S200.size a
  hwx0_5 : ∀ i : grid0.Coords, EltTy.bits .f32 = 32 ∨ (Rect.block (s := S200) S200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x20.size a ≤ S200x20.size a
  hwx0_6 : ∀ i : grid0.Coords, EltTy.bits .bf16 = 32 ∨ (Rect.block (s := S200x20) S200x20.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20.size a ≤ S20.size a
  hwx0_7 : ∀ i : grid0.Coords, EltTy.bits .f32 = 32 ∨ (Rect.block (s := S20) S20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20x2.size a ≤ S20x2.size a
  hwx0_8 : ∀ i : grid0.Coords, EltTy.bits .bf16 = 32 ∨ (Rect.block (s := S20x2) S20x2.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x256x2.size a ≤ S256x256x2.size a
  hwx0_10 : ∀ i : grid0.Coords, EltTy.bits .f32 = 32 ∨ (Rect.block (s := S256x256x2) S8x256x2.size (cc0_transform_10 i) (hinb0_10 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x200_S256x200_1_0_0_1_n_n : DotDims S256x512 S512x200 S256x200 where
  lhsContracting := [1]
  rhsContracting := [0]
  lhsNonContracting := [0]
  rhsNonContracting := [1]
  lhsBatch := []
  rhsBatch := []
  wf := dot_S256x512_S512x200_S256x200_1_0_0_1_n_n_wf
def dot_S256x200_S200x20_S256x20_1_0_0_1_n_n : DotDims S256x200 S200x20 S256x20 where
  lhsContracting := [1]
  rhsContracting := [0]
  lhsNonContracting := [0]
  rhsNonContracting := [1]
  lhsBatch := []
  rhsBatch := []
  wf := dot_S256x200_S200x20_S256x20_1_0_0_1_n_n_wf
def dot_S256x20_S20x2_S256x2_1_0_0_1_n_n : DotDims S256x20 S20x2 S256x2 where
  lhsContracting := [1]
  rhsContracting := [0]
  lhsNonContracting := [0]
  rhsNonContracting := [1]
  lhsBatch := []
  rhsBatch := []
  wf := dot_S256x20_S20x2_S256x2_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S200x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S20x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S8x256x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S256x512 : Shape := ⟨2, ![256, 512]⟩
abbrev S256x256 : Shape := ⟨2, ![256, 256]⟩
abbrev S256x512x512 : Shape := ⟨3, ![256, 512, 512]⟩
abbrev S512x200 : Shape := ⟨2, ![512, 200]⟩
abbrev S200 : Shape := ⟨1, ![200]⟩
abbrev S200x20 : Shape := ⟨2, ![200, 20]⟩
abbrev S20 : Shape := ⟨1, ![20]⟩
abbrev S20x2 : Shape := ⟨2, ![20, 2]⟩
abbrev S2 : Shape := ⟨1, ![2]⟩
abbrev S256x256x1 : Shape := ⟨3, ![256, 256, 1]⟩
abbrev S1x256x512 : Shape := ⟨3, ![1, 256, 512]⟩
abbrev S256x256x512 : Shape := ⟨3, ![256, 256, 512]⟩
abbrev S256x1x512 : Shape := ⟨3, ![256, 1, 512]⟩
abbrev S256x256x200 : Shape := ⟨3, ![256, 256, 200]⟩
abbrev S1x1x200 : Shape := ⟨3, ![1, 1, 200]⟩
abbrev S_ : Shape := ⟨0, ![]⟩
abbrev S256x256x20 : Shape := ⟨3, ![256, 256, 20]⟩
abbrev S1x1x20 : Shape := ⟨3, ![1, 1, 20]⟩
abbrev S256x256x2 : Shape := ⟨3, ![256, 256, 2]⟩
abbrev S1x1x2 : Shape := ⟨3, ![1, 1, 2]⟩
abbrev S65536x2 : Shape := ⟨2, ![65536, 2]⟩

abbrev nBuf : Space → Nat
  | .hbm => 84
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x256, .f32⟩
  | .hbm, ⟨2, _⟩ => ⟨S256x512x512, .f32⟩
  | .hbm, ⟨3, _⟩ => ⟨S256x512, .f32⟩
  | .hbm, ⟨4, _⟩ => ⟨S512x200, .f32⟩
  | .hbm, ⟨5, _⟩ => ⟨S200, .f32⟩
  | .hbm, ⟨6, _⟩ => ⟨S200x20, .f32⟩
  | .hbm, ⟨7, _⟩ => ⟨S20, .f32⟩
  | .hbm, ⟨8, _⟩ => ⟨S20x2, .f32⟩
  | .hbm, ⟨9, _⟩ => ⟨S2, .f32⟩
  | .hbm, ⟨10, _⟩ => ⟨S256x256x1, .f32⟩
  | .hbm, ⟨11, _⟩ => ⟨S1x256x512, .f32⟩
  | .hbm, ⟨12, _⟩ => ⟨S256x256x512, .f32⟩
  | .hbm, ⟨13, _⟩ => ⟨S256x256x512, .f32⟩
  | .hbm, ⟨14, _⟩ => ⟨S256x256x512, .f32⟩
  | .hbm, ⟨15, _⟩ => ⟨S256x256x512, .f32⟩
  | .hbm, ⟨16, _⟩ => ⟨S256x1x512, .f32⟩
  | .hbm, ⟨17, _⟩ => ⟨S256x256x512, .f32⟩
  | .hbm, ⟨18, _⟩ => ⟨S256x256x512, .f32⟩
  | .hbm, ⟨19, _⟩ => ⟨S256x256x200, .f32⟩
  | .hbm, ⟨20, _⟩ => ⟨S1x1x200, .f32⟩
  | .hbm, ⟨21, _⟩ => ⟨S256x256x200, .f32⟩
  | .hbm, ⟨22, _⟩ => ⟨S256x256x200, .f32⟩
  | .hbm, ⟨23, _⟩ => ⟨S_, .f32⟩
  | .hbm, ⟨24, _⟩ => ⟨S_, .f32⟩
  | .hbm, ⟨25, _⟩ => ⟨S256x256x200, .f32⟩
  | .hbm, ⟨26, _⟩ => ⟨S256x256x200, .i1⟩
  | .hbm, ⟨27, _⟩ => ⟨S_, .f32⟩
  | .hbm, ⟨28, _⟩ => ⟨S256x256x200, .f32⟩
  | .hbm, ⟨29, _⟩ => ⟨S256x256x200, .i1⟩
  | .hbm, ⟨30, _⟩ => ⟨S_, .f32⟩
  | .hbm, ⟨31, _⟩ => ⟨S_, .f32⟩
  | .hbm, ⟨32, _⟩ => ⟨S256x256x200, .f32⟩
  | .hbm, ⟨33, _⟩ => ⟨S256x256x200, .f32⟩
  | .hbm, ⟨34, _⟩ => ⟨S256x256x200, .f32⟩
  | .hbm, ⟨35, _⟩ => ⟨S_, .f32⟩
  | .hbm, ⟨36, _⟩ => ⟨S256x256x200, .f32⟩
  | .hbm, ⟨37, _⟩ => ⟨S256x256x200, .f32⟩
  | .hbm, ⟨38, _⟩ => ⟨S256x256x200, .f32⟩
  | .hbm, ⟨39, _⟩ => ⟨S_, .f32⟩
  | .hbm, ⟨40, _⟩ => ⟨S256x256x200, .f32⟩
  | .hbm, ⟨41, _⟩ => ⟨S256x256x200, .f32⟩
  | .hbm, ⟨42, _⟩ => ⟨S256x256x20, .f32⟩
  | .hbm, ⟨43, _⟩ => ⟨S1x1x20, .f32⟩
  | .hbm, ⟨44, _⟩ => ⟨S256x256x20, .f32⟩
  | .hbm, ⟨45, _⟩ => ⟨S256x256x20, .f32⟩
  | .hbm, ⟨46, _⟩ => ⟨S_, .f32⟩
  | .hbm, ⟨47, _⟩ => ⟨S_, .f32⟩
  | .hbm, ⟨48, _⟩ => ⟨S256x256x20, .f32⟩
  | .hbm, ⟨49, _⟩ => ⟨S256x256x20, .i1⟩
  | .hbm, ⟨50, _⟩ => ⟨S_, .f32⟩
  | .hbm, ⟨51, _⟩ => ⟨S256x256x20, .f32⟩
  | .hbm, ⟨52, _⟩ => ⟨S256x256x20, .i1⟩
  | .hbm, ⟨53, _⟩ => ⟨S_, .f32⟩
  | .hbm, ⟨54, _⟩ => ⟨S_, .f32⟩
  | .hbm, ⟨55, _⟩ => ⟨S256x256x20, .f32⟩
  | .hbm, ⟨56, _⟩ => ⟨S256x256x20, .f32⟩
  | .hbm, ⟨57, _⟩ => ⟨S256x256x20, .f32⟩
  | .hbm, ⟨58, _⟩ => ⟨S_, .f32⟩
  | .hbm, ⟨59, _⟩ => ⟨S256x256x20, .f32⟩
  | .hbm, ⟨60, _⟩ => ⟨S256x256x20, .f32⟩
  | .hbm, ⟨61, _⟩ => ⟨S256x256x20, .f32⟩
  | .hbm, ⟨62, _⟩ => ⟨S_, .f32⟩
  | .hbm, ⟨63, _⟩ => ⟨S256x256x20, .f32⟩
  | .hbm, ⟨64, _⟩ => ⟨S256x256x20, .f32⟩
  | .hbm, ⟨65, _⟩ => ⟨S256x256x2, .f32⟩
  | .hbm, ⟨66, _⟩ => ⟨S1x1x2, .f32⟩
  | .hbm, ⟨67, _⟩ => ⟨S256x256x2, .f32⟩
  | .hbm, ⟨68, _⟩ => ⟨S256x256x2, .f32⟩
  | .hbm, ⟨69, _⟩ => ⟨S_, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256x1, .f32⟩
  | .hbm, ⟨75, _⟩ => ⟨S256x256x2, .f32⟩
  | .hbm, ⟨76, _⟩ => ⟨S256x256x2, .f32⟩
  | .hbm, ⟨77, _⟩ => ⟨S256x256x2, .f32⟩
  | .hbm, ⟨78, _⟩ => ⟨S_, .f32⟩
  | .hbm, ⟨79, _⟩ => ⟨S256x256, .f32⟩
  | .hbm, ⟨80, _⟩ => ⟨S256x256x1, .f32⟩
  | .hbm, ⟨81, _⟩ => ⟨S256x256x2, .f32⟩
  | .hbm, ⟨82, _⟩ => ⟨S256x256x2, .f32⟩
  | .hbm, ⟨83, _⟩ => ⟨S65536x2, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_1 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_call1_cst : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_cst_0 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_cst_1 : Ref sig .tc := ⟨.hbm, 53, rfl⟩
abbrev main_call1_call0_call0_v0 : Ref sig .tc := ⟨.hbm, 54, rfl⟩
abbrev main_call1_call0_call0_v1 : Ref sig .tc := ⟨.hbm, 55, rfl⟩
abbrev main_call1_call0_v4 : Ref sig .tc := ⟨.hbm, 56, rfl⟩
abbrev main_call1_call0_v5 : Ref sig .tc := ⟨.hbm, 57, rfl⟩
abbrev main_call1_call0_v6 : Ref sig .tc := ⟨.hbm, 58, rfl⟩
abbrev main_call1_call0_v7 : Ref sig .tc := ⟨.hbm, 59, rfl⟩
abbrev main_call1_call0_v8 : Ref sig .tc := ⟨.hbm, 60, rfl⟩
abbrev main_call1_v0 : Ref sig .tc := ⟨.hbm, 61, rfl⟩
abbrev main_call1_cst_0 : Ref sig .tc := ⟨.hbm, 62, rfl⟩
abbrev main_call1_v1 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst : Ref sig .tc := ⟨.hbm, 69, rfl⟩
abbrev main_v23 : Ref sig .tc := ⟨.hbm, 70, rfl⟩
abbrev main_cst_0 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_1 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩

abbrev nD : Nat := 1
abbrev τ : Topo := Topo.v7x

variable {F : FTy → Type} [FloatOps F]

class Facts₀ : Prop where
  bcast_S256x256_S256x256x1_0_1 : S256x256.BroadcastsInDim S256x256x1 (![0, 1] : Fin 2 → Fin S256x256x1.rank)
  bcast_S256x512_S1x256x512_1_2 : S256x512.BroadcastsInDim S1x256x512 (![1, 2] : Fin 2 → Fin S1x256x512.rank)
  bcast_S256x256x1_S256x256x512_0_1_2 : S256x256x1.BroadcastsInDim S256x256x512 (![0, 1, 2] : Fin 3 → Fin S256x256x512.rank)
  bcast_S1x256x512_S256x256x512_0_1_2 : S1x256x512.BroadcastsInDim S256x256x512 (![0, 1, 2] : Fin 3 → Fin S256x256x512.rank)
  bcast_S256x512_S256x1x512_0_2 : S256x512.BroadcastsInDim S256x1x512 (![0, 2] : Fin 2 → Fin S256x1x512.rank)
  bcast_S256x1x512_S256x256x512_0_1_2 : S256x1x512.BroadcastsInDim S256x256x512 (![0, 1, 2] : Fin 3 → Fin S256x256x512.rank)
  bcast_S200_S1x1x200_2 : S200.BroadcastsInDim S1x1x200 (![2] : Fin 1 → Fin S1x1x200.rank)
  bcast_S1x1x200_S256x256x200_0_1_2 : S1x1x200.BroadcastsInDim S256x256x200 (![0, 1, 2] : Fin 3 → Fin S256x256x200.rank)
  bcast_S_S256x256x200 : S_.BroadcastsInDim S256x256x200 (![] : Fin 0 → Fin S256x256x200.rank)
  bcast_S20_S1x1x20_2 : S20.BroadcastsInDim S1x1x20 (![2] : Fin 1 → Fin S1x1x20.rank)
  bcast_S1x1x20_S256x256x20_0_1_2 : S1x1x20.BroadcastsInDim S256x256x20 (![0, 1, 2] : Fin 3 → Fin S256x256x20.rank)
  bcast_S_S256x256x20 : S_.BroadcastsInDim S256x256x20 (![] : Fin 0 → Fin S256x256x20.rank)
  bcast_S2_S1x1x2_2 : S2.BroadcastsInDim S1x1x2 (![2] : Fin 1 → Fin S1x1x2.rank)
  bcast_S1x1x2_S256x256x2_0_1_2 : S1x1x2.BroadcastsInDim S256x256x2 (![0, 1, 2] : Fin 3 → Fin S256x256x2.rank)
  reducesTo_S256x256x2_S256x256_d2 : S256x256x2.ReducesTo [2] S256x256
  h_S_ : 0 < S_.numel
  bcast_S_S256x256 : S_.BroadcastsInDim S256x256 (![] : Fin 0 → Fin S256x256.rank)
  bcast_S256x256x1_S256x256x2_0_1_2 : S256x256x1.BroadcastsInDim S256x256x2 (![0, 1, 2] : Fin 3 → Fin S256x256x2.rank)
  shapeCasts_S256x256x2_S65536x2 : S256x256x2.ShapeCasts S65536x2
  dot_S256x256x512_S256x512x512_S256x256x512_2_1_1_2_0_0_wf : DotDims.WF S256x256x512 S256x512x512 S256x256x512 [2] [1] [1] [2] [0] [0]
  dot_S256x256x512_S512x200_S256x256x200_2_0_01_1_n_n_wf : DotDims.WF S256x256x512 S512x200 S256x256x200 [2] [0] [0, 1] [1] [] []
  dot_S256x256x200_S200x20_S256x256x20_2_0_01_1_n_n_wf : DotDims.WF S256x256x200 S200x20 S256x256x20 [2] [0] [0, 1] [1] [] []
  dot_S256x256x20_S20x2_S256x256x2_2_0_01_1_n_n_wf : DotDims.WF S256x256x20 S20x2 S256x256x2 [2] [0] [0, 1] [1] [] []

variable [Facts₀]

def dot_S256x256x512_S256x512x512_S256x256x512_2_1_1_2_0_0 : DotDims S256x256x512 S256x512x512 S256x256x512 where
  lhsContracting := [2]
  rhsContracting := [1]
  lhsNonContracting := [1]
  rhsNonContracting := [2]
  lhsBatch := [0]
  rhsBatch := [0]
  wf := dot_S256x256x512_S256x512x512_S256x256x512_2_1_1_2_0_0_wf
def dot_S256x256x512_S512x200_S256x256x200_2_0_01_1_n_n : DotDims S256x256x512 S512x200 S256x256x200 where
  lhsContracting := [2]
  rhsContracting := [0]
  lhsNonContracting := [0, 1]
  rhsNonContracting := [1]
  lhsBatch := []
  rhsBatch := []
  wf := dot_S256x256x512_S512x200_S256x256x200_2_0_01_1_n_n_wf
def dot_S256x256x200_S200x20_S256x256x20_2_0_01_1_n_n : DotDims S256x256x200 S200x20 S256x256x20 where
  lhsContracting := [2]
  rhsContracting := [0]
  lhsNonContracting := [0, 1]
  rhsNonContracting := [1]
  lhsBatch := []
  rhsBatch := []
  wf := dot_S256x256x200_S200x20_S256x256x20_2_0_01_1_n_n_wf
def dot_S256x256x20_S20x2_S256x256x2_2_0_01_1_n_n : DotDims S256x256x20 S20x2 S256x256x2 where
  lhsContracting := [2]
  rhsContracting := [0]
  lhsNonContracting := [0, 1]
  rhsNonContracting := [1]
  lhsBatch := []
  rhsBatch := []
  wf := dot_S256x256x20_S20x2_S256x256x2_2_0_01_1_n_n_wf

class Facts : Prop extends Facts₀ where

variable [Facts]
-- ==== Proof.KerTrip.lean ====
/-
  What one grid point leaves in the output's staging buffer. The body walks the point's eight experts
  in a counted loop; trip k loads expert k's magnification column, weight matrix and bias row, and
  stores one [1, 256, 2] slab of probabilities at row k of the [8, 256, 2] buffer. So the buffer ends
  holding ONE function of its index as soon as every trip's slab is that function's block at row k:
  the eight slabs tile the buffer, and each is read back where it was written.
-/
import proofs.«145716_j50182397886820_2_alg».proof.Proof.Gen.KernelIdeal.Frame
import Idealize.ShloMosaic.Lib.Pipeline.Value
import Idealize.ShloMosaic.Lib.Tactic

set_option maxRecDepth 16384

noncomputable section

namespace Cert.KernelIdeal.KerValue

open Idealize.ShloMosaic Idealize.ShloMosaic.TcCoe Idealize.ShloMosaic.Tactic Idealize.SL.Sem
open Cert.KernelIdeal Cert.KernelIdeal.Gen

variable {F : FTy → Type} [FloatOps F]

/-- One trip's stored slab as a function of the resident operands (x, the three shared weight
    matrices and biases) and the trip's three loads (magnification column, weights, bias row). -/
def tripPay (v0 : Vec F S256x512 .f32) (v1 : Vec F S512x200 .bf16) (v3 : Vec F S200 .f32) (v4 : Vec F S200x20 .bf16) (v6 : Vec F S20 .f32) (v7 : Vec F S20x2 .bf16) (v9 : Vec F S2 .f32) (l2 : Vec F S1x256x1 .f32) (l4 : Vec F S1x512x512 .f32) (l3 : Vec F S1x1x512 .f32) : FVec F S1x256x2 .f32 :=
  k0_pay3 v7 v9 (k0_pay4 v0 (k0_pay1 v1) v3 (k0_pay2 v4) v6 l2 l4 l3) (k0_pay5 v0 (k0_pay1 v1) v3 (k0_pay2 v4) v6 l2 l4 l3)
    (k0_pay6 v0 (k0_pay1 v1) v3 (k0_pay2 v4) v6 l2 l4 l3) (k0_pay7 (F := F))

/-- Trip k writes exactly one piece: the slab, at row k. -/
theorem tripL_eq (𝒱 : Variants) (c : Dev nD) (bd : Option 𝒱.V) (i : grid0.Coords) (arg1 : Memref sig .tc .vmem S256x512 .f32) (harg1 : arg1.IsWhole) (arg2 : Memref sig .tc .vmem S8x256x1 .f32) (harg2 : arg2.IsWhole) (arg3 : Memref sig .tc .vmem S8x1x512 .f32) (harg3 : arg3.IsWhole) (arg4 : Memref sig .tc .vmem S8x512x512 .f32) (harg4 : arg4.IsWhole) (arg5 : Memref sig .tc .vmem S512x200 .bf16) (harg5 : arg5.IsWhole) (arg6 : Memref sig .tc .vmem S200 .f32) (harg6 : arg6.IsWhole) (arg7 : Memref sig .tc .vmem S200x20 .bf16) (harg7 : arg7.IsWhole) (arg8 : Memref sig .tc .vmem S20 .f32) (harg8 : arg8.IsWhole) (arg9 : Memref sig .tc .vmem S20x2 .bf16) (harg9 : arg9.IsWhole) (arg10 : Memref sig .tc .vmem S2 .f32) (harg10 : arg10.IsWhole) (arg11 : Memref sig .tc .vmem S8x256x2 .f32) (harg11 : arg11.IsWhole) (v0 : Vec F S256x512 .f32) (v1 : Vec F S512x200 .bf16) (v3 : Vec F S200 .f32) (v4 : Vec F S200x20 .bf16) (v6 : Vec F S20 .f32) (v7 : Vec F S20x2 .bf16) (v9 : Vec F S2 .f32) (X_arg2 : BufTy.Contents (Elt F) arg2.view.ty) (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v0 v1 v3 v4 v6 v7 v9 X_arg2 X_arg3 X_arg4 k
      = [⟨Rect.unit (s := S8x256x2) (k0_off4 k) S1x256x2.size (k0_off4_inb k),
          tripPay v0 v1 v3 v4 v6 v7 v9
            (View.readAt (Elt F) arg2.view (Rect.unit (s := S8x256x1) (k0_off1 k) S1x256x1.size (k0_off1_inb k)).toLoadRect X_arg2)
            (View.readAt (Elt F) arg4.view (Rect.unit (s := S8x512x512) (k0_off2 k) S1x512x512.size (k0_off2_inb k)).toLoadRect X_arg4)
            (View.readAt (Elt F) arg3.view (Rect.unit (s := S8x1x512) (k0_off3 k) S1x1x512.size (k0_off3_inb k)).toLoadRect X_arg3)⟩] := by
  unfold tripL_k0_t1 trip_k0_t1
  dsimp only
  sl_unfold_run_names
  rfl

/-- If every trip's slab is the block of G at the trip's row, every piece written before trip n is a block of G. -/
theorem pieces_of (𝒱 : Variants) (c : Dev nD) (bd : Option 𝒱.V) (i : grid0.Coords) (arg1 : Memref sig .tc .vmem S256x512 .f32) (harg1 : arg1.IsWhole) (arg2 : Memref sig .tc .vmem S8x256x1 .f32) (harg2 : arg2.IsWhole) (arg3 : Memref sig .tc .vmem S8x1x512 .f32) (harg3 : arg3.IsWhole) (arg4 : Memref sig .tc .vmem S8x512x512 .f32) (harg4 : arg4.IsWhole) (arg5 : Memref sig .tc .vmem S512x200 .bf16) (harg5 : arg5.IsWhole) (arg6 : Memref sig .tc .vmem S200 .f32) (harg6 : arg6.IsWhole) (arg7 : Memref sig .tc .vmem S200x20 .bf16) (harg7 : arg7.IsWhole) (arg8 : Memref sig .tc .vmem S20 .f32) (harg8 : arg8.IsWhole) (arg9 : Memref sig .tc .vmem S20x2 .bf16) (harg9 : arg9.IsWhole) (arg10 : Memref sig .tc .vmem S2 .f32) (harg10 : arg10.IsWhole) (arg11 : Memref sig .tc .vmem S8x256x2 .f32) (harg11 : arg11.IsWhole) (v0 : Vec F S256x512 .f32) (v1 : Vec F S512x200 .bf16) (v3 : Vec F S200 .f32) (v4 : Vec F S200x20 .bf16) (v6 : Vec F S20 .f32) (v7 : Vec F S20x2 .bf16) (v9 : Vec F S2 .f32) (X_arg2 : BufTy.Contents (Elt F) arg2.view.ty) (X_arg3 : BufTy.Contents (Elt F) arg3.view.ty) (X_arg4 : BufTy.Contents (Elt F) arg4.view.ty)
    (G : S8x256x2.Idx → Elt F .f32)
    (hG : ∀ (k : Fin k0_t1_loop.trips) (x : S1x256x2.Idx),
      tripPay v0 v1 v3 v4 v6 v7 v9
        (View.readAt (Elt F) arg2.view (Rect.unit (s := S8x256x1) (k0_off1 k) S1x256x1.size (k0_off1_inb k)).toLoadRect X_arg2)
        (View.readAt (Elt F) arg4.view (Rect.unit (s := S8x512x512) (k0_off2 k) S1x512x512.size (k0_off2_inb k)).toLoadRect X_arg4)
        (View.readAt (Elt F) arg3.view (Rect.unit (s := S8x1x512) (k0_off3 k) S1x1x512.size (k0_off3_inb k)).toLoadRect X_arg3) x
      = G ((Rect.unit (s := S8x256x2) (k0_off4 k) S1x256x2.size (k0_off4_inb k)).emb x)) :
    ∀ (n : ℕ), ∀ p ∈ pb_k0_t1 (F := F) 𝒱 c bd i arg1 harg1 arg2 harg2 arg3 harg3 arg4 harg4 arg5 harg5 arg6 harg6 arg7 harg7 arg8 harg8 arg9 harg9 arg10 harg10 arg11 harg11 v0 v1 v3 v4 v6 v7 v9 X_arg2 X_arg3 X_arg4 n,
      ∀ x : p.1.shape.Idx, p.2 x = G (p.1.emb x)
  | 0 => by
    intro p hp
    rw [pb_k0_t1.eq_1] at hp
    exact absurd hp (List.not_mem_nil)
  | n + 1 => by
    intro p hp x
    rw [pb_k0_t1.eq_2] at hp
    unfold pb_k0_t1Step at hp
    split at hp
    · rcases List.mem_append.mp hp with hp | hp
      · rw [tripL_eq, List.mem_singleton] at hp
        subst hp
        exact hG _ x
      · exact pieces_of 𝒱 c bd i arg1 harg1 arg2 harg2 arg3 harg3 arg4 harg4 arg5 harg5 arg6 harg6 arg7 harg7 arg8 harg8 arg9 harg9 arg10 harg10 arg11 harg11 v0 v1 v3 v4 v6 v7 v9 X_arg2 X_arg3 X_arg4 G hG n p hp x
    · exact pieces_of 𝒱 c bd i arg1 harg1 arg2 harg2 arg3 harg3 arg4 harg4 arg5 harg5 arg6 harg6 arg7 harg7 arg8 harg8 arg9 harg9 arg10 harg10 arg11 harg11 v0 v1 v3 v4 v6 v7 v9 X_arg2 X_arg3 X_arg4 G hG n p hp x

theorem hz1 : (![0] : Fin 1 → Nat) = fun _ => 0 := funext fun a => by fin_cases a; rfl
theorem hz2 : (![0, 0] : Fin 2 → Nat) = fun _ => 0 := funext fun a => by fin_cases a <;> rfl

/-- The buffer after the body: G, when every trip's slab — over the blocks the point was called with —
    is G's block at the trip's row. -/
theorem out_eq (c : Dev nD) (i : grid0.Coords) (arg1 : Memref sig .tc .vmem S256x512 .f32) (harg1 : arg1.IsWhole) (arg2 : Memref sig .tc .vmem S8x256x1 .f32) (harg2 : arg2.IsWhole) (arg3 : Memref sig .tc .vmem S8x1x512 .f32) (harg3 : arg3.IsWhole) (arg4 : Memref sig .tc .vmem S8x512x512 .f32) (harg4 : arg4.IsWhole) (arg5 : Memref sig .tc .vmem S512x200 .bf16) (harg5 : arg5.IsWhole) (arg6 : Memref sig .tc .vmem S200 .f32) (harg6 : arg6.IsWhole) (arg7 : Memref sig .tc .vmem S200x20 .bf16) (harg7 : arg7.IsWhole) (arg8 : Memref sig .tc .vmem S20 .f32) (harg8 : arg8.IsWhole) (arg9 : Memref sig .tc .vmem S20x2 .bf16) (harg9 : arg9.IsWhole) (arg10 : Memref sig .tc .vmem S2 .f32) (harg10 : arg10.IsWhole) (arg11 : Memref sig .tc .vmem S8x256x2 .f32) (harg11 : arg11.IsWhole)
    (x0 : Vec F S256x512 .f32) (x1 : Vec F S8x256x1 .f32) (x2 : Vec F S8x1x512 .f32) (x3 : Vec F S8x512x512 .f32) (x4 : Vec F S512x200 .bf16) (x5 : Vec F S200 .f32) (x6 : Vec F S200x20 .bf16) (x7 : Vec F S20 .f32) (x8 : Vec F S20x2 .bf16) (x9 : Vec F S2 .f32)
    (G : S8x256x2.Idx → Elt F .f32)
    (hG : ∀ (k : Fin k0_t1_loop.trips) (x : S1x256x2.Idx),
      tripPay x0 x4 x5 x6 x7 x8 x9
        (View.ld x1 (Rect.unit (s := S8x256x1) (k0_off1 k) S1x256x1.size (k0_off1_inb k)))
        (View.ld x3 (Rect.unit (s := S8x512x512) (k0_off2 k) S1x512x512.size (k0_off2_inb k)))
        (View.ld x2 (Rect.unit (s := S8x1x512) (k0_off3 k) S1x1x512.size (k0_off3_inb k))) x
      = G ((Rect.unit (s := S8x256x2) (k0_off4 k) S1x256x2.size (k0_off4_inb k)).emb x)) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 = G := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  refine View.canon_apply_of_pieces G _ ?_ y (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y)
  unfold kernelRun0_A
  dsimp only
  refine pieces_of Variants.none c none i arg1 harg1 arg2 harg2 arg3 harg3 arg4 harg4 arg5 harg5 arg6 harg6 arg7 harg7 arg8 harg8 arg9 harg9 arg10 harg10 arg11 harg11 _ _ _ _ _ _ _ _ _ _ G ?_ _
  intro k x
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S256x512) hz2, View.ld_unit_zero (S := S512x200) hz2, View.ld_unit_zero (S := S200) hz1,
    View.ld_unit_zero (S := S200x20) hz2, View.ld_unit_zero (S := S20) hz1, View.ld_unit_zero (S := S20x2) hz2,
    View.ld_unit_zero (S := S2) hz1]
  exact hG k x

end Cert.KernelIdeal.KerValue

end
-- ==== Proof.Net.lean ====
/-
  The network both programs compute, stated once over the extended reals. For expert e, batch row b:
  the row of x scaled by the expert's magnification of b; an affine layer with the expert's own
  512 x 512 weights and bias; a shared affine layer to 200 units and a shared one to 20, each followed
  by the scaled exponential-linear unit; a shared affine layer to the two logits; and the softmax of
  the two logits, taken the stable way (the row maximum subtracted before the exponential).
  Every sum is a plain finite sum of products: nothing here needs a sum reordered or a factor moved
  across one, so no entry has to be finite for the two programs to agree.
-/
import Idealize.ShloMosaic.PureOps.Ideal
import Idealize.ShloMosaic.PureOps.Vector
import Idealize.ShloMosaic.Lib.ValueIdx

noncomputable section

namespace Cert.Net

open Idealize.ShloMosaic Idealize.ShloMosaic.ValueIdx

/-- The unit applied after the second and third layers: scale * (z where z > 0, else
    alpha * (e^z - 1)), with alpha and scale the two single-precision words both programs carry. -/
def selu (z : EReal) : EReal :=
  Ideal.ofBits .f32 0x3F867D5F#32 *
    Scalar.select (Ideal.cmp .ogt z (Ideal.ofBits .f32 0x00000000#32)) z
      (Ideal.ofBits .f32 0x3FD62D7D#32 * (Ideal.exp z - 1))

section
variable (x : FVec Ideal ⟨2, ![256, 512]⟩ .f32) (mag : FVec Ideal ⟨2, ![256, 256]⟩ .f32)
  (wpre : FVec Ideal ⟨3, ![256, 512, 512]⟩ .f32) (bpre : FVec Ideal ⟨2, ![256, 512]⟩ .f32)
  (wsh : FVec Ideal ⟨2, ![512, 200]⟩ .f32) (bsh : FVec Ideal ⟨1, ![200]⟩ .f32)
  (w1 : FVec Ideal ⟨2, ![200, 20]⟩ .f32) (b1 : FVec Ideal ⟨1, ![20]⟩ .f32)
  (w2 : FVec Ideal ⟨2, ![20, 2]⟩ .f32) (b2 : FVec Ideal ⟨1, ![2]⟩ .f32)

/-- The expert's own layer: sum over p of (mag e b * x b p) * wpre e p q, plus bpre e q. -/
def pre (e b : Fin 256) (q : Fin 512) : EReal :=
  (∑ p : Fin 512, (mag (ix2 e b) * x (ix2 b p)) * wpre (ix3 e p q)) + bpre (ix2 e q)

/-- The shared layer to 200 units, through the unit. -/
def share (e b : Fin 256) (s : Fin 200) : EReal :=
  selu ((∑ p : Fin 512, pre x mag wpre bpre e b p * wsh (ix2 p s)) + bsh (ix1 s))

/-- The shared layer to 20 units, through the unit. -/
def base (e b : Fin 256) (t : Fin 20) : EReal :=
  selu ((∑ s : Fin 200, share x mag wpre bpre wsh bsh e b s * w1 (ix2 s t)) + b1 (ix1 t))

/-- The two logits. -/
def logit (e b : Fin 256) (l : Fin 2) : EReal :=
  (∑ t : Fin 20, base x mag wpre bpre wsh bsh w1 b1 e b t * w2 (ix2 t l)) + b2 (ix1 l)

/-- The larger of the two logits, as a fold of max from minus infinity. -/
def rowMax (e b : Fin 256) : EReal :=
  (Finset.univ : Finset (Fin 2)).fold max (Ideal.ofBits .f32 0xFF800000#32)
    (fun l => logit x mag wpre bpre wsh bsh w1 b1 w2 b2 e b l)

/-- e^(logit - row maximum). -/
def expo (e b : Fin 256) (l : Fin 2) : EReal :=
  Ideal.exp (logit x mag wpre bpre wsh bsh w1 b1 w2 b2 e b l - rowMax x mag wpre bpre wsh bsh w1 b1 w2 b2 e b)

/-- The softmax of the two logits. -/
def prob (e b : Fin 256) (l : Fin 2) : EReal :=
  Ideal.div (expo x mag wpre bpre wsh bsh w1 b1 w2 b2 e b l)
    (∑ l' : Fin 2, expo x mag wpre bpre wsh bsh w1 b1 w2 b2 e b l')

/-- The probabilities as one [256, 256, 2] array. -/
def probs : FVec Ideal ⟨3, ![256, 256, 2]⟩ .f32 :=
  fun j => prob x mag wpre bpre wsh bsh w1 b1 w2 b2 (j 0) (j 1) (j 2)

theorem probs_ix3 (e b : Fin 256) (l : Fin 2) :
    probs x mag wpre bpre wsh bsh w1 b1 w2 b2 (ix3 e b l) = prob x mag wpre bpre wsh bsh w1 b1 w2 b2 e b l := rfl

/-- The result both programs return: the probabilities with the expert and batch axes merged,
    rows in expert-major order. -/
def out (hc : (⟨3, ![256, 256, 2]⟩ : Shape).ShapeCasts ⟨2, ![65536, 2]⟩) : FVec Ideal ⟨2, ![65536, 2]⟩ .f32 :=
  shapeCast ⟨2, ![65536, 2]⟩ (probs x mag wpre bpre wsh bsh w1 b1 w2 b2) hc

end

end Cert.Net

end
-- ==== Proof.KerBlocks.lean ====
/-
  From the blocks to the array. Grid point t of 32 stages experts 8t … 8t+7: their magnification
  columns, weight matrices and bias rows (three windows whose block index is t on the expert axis),
  and, unmoved, x and the shared weights and biases. The host prepares three of the operands before
  the launch — the magnifications and the expert biases with a unit axis inserted, the three shared
  weight matrices through a format change that is the identity on the extended reals — so each block
  read is the corresponding argument array read at expert 8t + k. With the slab of trip k equal to
  the network's probabilities of expert 8t + k (the payload fact), the block point t writes back is
  the block of the probabilities array; the 32 blocks tile that array, so it ends holding the
  probabilities.
-/
import proofs.«145716_j50182397886820_2_alg».proof.Proof.KerTrip
import proofs.«145716_j50182397886820_2_alg».proof.Proof.Net
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KerValue

open Idealize.ShloMosaic Idealize.ShloMosaic.TcCoe Idealize.ShloMosaic.Tactic Idealize.SL.Sem Idealize.ShloMosaic.ValueIdx
open Cert.KernelIdeal Cert.KernelIdeal.Gen

/-- The payload fact: one trip's slab, over blocks that agree with the argument arrays at expert e,
    is the network's probabilities of expert e. -/
def PayFact : Prop := ∀
    (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (w2 : FVec Ideal ⟨2, ![20, 2]⟩ .f32) (b2 : FVec Ideal ⟨1, ![2]⟩ .f32)
    (e : Fin 256)
    (v0 : Vec Ideal S256x512 .f32) (v1 : Vec Ideal S512x200 .bf16) (v3 : Vec Ideal S200 .f32) (v4 : Vec Ideal S200x20 .bf16)
    (v6 : Vec Ideal S20 .f32) (v7 : Vec Ideal S20x2 .bf16) (v9 : Vec Ideal S2 .f32)
    (l2 : Vec Ideal S1x256x1 .f32) (l4 : Vec Ideal S1x512x512 .f32) (l3 : Vec Ideal S1x1x512 .f32)
    (h0 : ∀ (b : Fin 256) (p : Fin 512), v0 (ix2 b p) = x (ix2 b p))
    (h1 : ∀ (p : Fin 512) (s : Fin 200), v1 (ix2 p s) = wsh (ix2 p s))
    (h3 : ∀ s : Fin 200, v3 (ix1 s) = bsh (ix1 s))
    (h4 : ∀ (s : Fin 200) (t : Fin 20), v4 (ix2 s t) = w1 (ix2 s t))
    (h6 : ∀ t : Fin 20, v6 (ix1 t) = b1 (ix1 t))
    (h7 : ∀ (t : Fin 20) (l : Fin 2), v7 (ix2 t l) = w2 (ix2 t l))
    (h9 : ∀ l : Fin 2, v9 (ix1 l) = b2 (ix1 l))
    (hl2 : ∀ b : Fin 256, l2 (ix3 (0 : Fin 1) b (0 : Fin 1)) = mag (ix2 e b))
    (hl4 : ∀ p q : Fin 512, l4 (ix3 (0 : Fin 1) p q) = wpre (ix3 e p q))
    (hl3 : ∀ q : Fin 512, l3 (ix3 (0 : Fin 1) (0 : Fin 1) q) = bpre (ix2 e q))
    (u : Fin 1) (b : Fin 256) (l : Fin 2),
    tripPay (F := Ideal) v0 v1 v3 v4 v6 v7 v9 l2 l4 l3 (ix3 u b l)
      = Cert.Net.prob x mag wpre bpre wsh bsh w1 b1 w2 b2 e b l

variable (m : (ℓ : Loc nD τ sig) → Buf (Elt Ideal) ℓ) (ρ : Dev nD → PrngReg)

/-! ## The operands the host prepares -/

theorem V_main_v0 (c : Dev nD) : @Eq (FVec Ideal S256x256x1 .f32) (V m c main_v0)
    (broadcastInDim S256x256x1 ![0, 1] bcast_S256x256_S256x256x1_0_1 (m ((c : Thread nD τ).loc main_arg1) : FVec Ideal S256x256 .f32)) := by
  show StableHlo.after hostOps0 (fun b => m (c, b)) (Proc.devRef .tc main_v0) = _
  after_results

/-- The magnifications with a trailing unit axis: (e, b, 0) reads (e, b). -/
theorem V_main_v0_apply (c : Dev nD) (e b : Fin 256) (u : Fin 1) :
    V m c main_v0 (ix3 e b u) = m ((c : Thread nD τ).loc main_arg1) (ix2 e b) := by
  rw [V_main_v0]
  refine broadcastInDim_apply _ _ _ (ix3 e b u) (ix2 e b) fun a => ?_
  match a with
  | ⟨0, _⟩ => rfl
  | ⟨1, _⟩ => rfl

theorem V_main_v1 (c : Dev nD) : @Eq (FVec Ideal S256x1x512 .f32) (V m c main_v1)
    (broadcastInDim S256x1x512 ![0, 2] bcast_S256x512_S256x1x512_0_2 (m ((c : Thread nD τ).loc main_arg3) : FVec Ideal S256x512 .f32)) := by
  show StableHlo.after hostOps0 (fun b => m (c, b)) (Proc.devRef .tc main_v1) = _
  after_results

/-- The expert biases with a middle unit axis: (e, 0, q) reads (e, q). -/
theorem V_main_v1_apply (c : Dev nD) (e : Fin 256) (u : Fin 1) (q : Fin 512) :
    V m c main_v1 (ix3 e u q) = m ((c : Thread nD τ).loc main_arg3) (ix2 e q) := by
  rw [V_main_v1]
  refine broadcastInDim_apply _ _ _ (ix3 e u q) (ix2 e q) fun a => ?_
  match a with
  | ⟨0, _⟩ => rfl
  | ⟨1, _⟩ => rfl

theorem V_main_v2 (c : Dev nD) : @Eq (FVec Ideal S512x200 .bf16) (V m c main_v2)
    (truncf .bf16 (m ((c : Thread nD τ).loc main_arg4) : FVec Ideal S512x200 .f32) bitsLt_bf16_f32) := by
  show StableHlo.after hostOps0 (fun b => m (c, b)) (Proc.devRef .tc main_v2) = _
  after_results

theorem V_main_v3 (c : Dev nD) : @Eq (FVec Ideal S200x20 .bf16) (V m c main_v3)
    (truncf .bf16 (m ((c : Thread nD τ).loc main_arg6) : FVec Ideal S200x20 .f32) bitsLt_bf16_f32) := by
  show StableHlo.after hostOps0 (fun b => m (c, b)) (Proc.devRef .tc main_v3) = _
  after_results

theorem V_main_v4 (c : Dev nD) : @Eq (FVec Ideal S20x2 .bf16) (V m c main_v4)
    (truncf .bf16 (m ((c : Thread nD τ).loc main_arg8) : FVec Ideal S20x2 .f32) bitsLt_bf16_f32) := by
  show StableHlo.after hostOps0 (fun b => m (c, b)) (Proc.devRef .tc main_v4) = _
  after_results

/-! ## Where each window's block sits -/

/-- The printed index maps over the 32 points: the three per-expert windows and the output move with
    the point on the expert axis; every other window stays at block zero. -/
theorem idx_facts : ∀ t : Fin cfg0.N,
    win0_10.index t (0 : Fin 3) = t.val ∧ win0_10.index t (1 : Fin 3) = 0 ∧ win0_10.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_0.index t (0 : Fin 2) = 0 ∧ win0_0.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

theorem trips_eq : k0_t1_loop.trips = 8 := by decide +kernel

/-- The magnification block of point t, at local expert k and row b: the argument at expert 8t + k. -/
theorem iblk1_apply (c : Dev nD) (t : Fin cfg0.N) (k : Fin 8) (b : Fin 256) (u : Fin 1) (e : Fin 256) (he : e.val = 8 * t.val + k.val) :
    (iblk m c 1 t : Vec Ideal S8x256x1 .f32) (ix3 k b u) = m ((c : Thread nD τ).loc main_arg1) (ix2 e b) := by
  obtain ⟨-, -, -, e0, e1, e2, -⟩ := idx_facts t
  unfold iblk
  rw [View.read_apply]
  show V m c main_v0 (((cfg0.win 1).blk t).view.emb (ix3 k b u)) = _
  rw [← V_main_v0_apply m c e b u]
  refine congrArg (V m c main_v0) (funext fun a => Fin.ext ?_)
  match a with
  | ⟨0, _⟩ => show win0_1.index t (0 : Fin 3) * 8 + 1 * k.val = e.val; rw [e0, he]; omega
  | ⟨1, _⟩ => show win0_1.index t (1 : Fin 3) * 256 + 1 * b.val = b.val; rw [e1]; omega
  | ⟨2, _⟩ => show win0_1.index t (2 : Fin 3) * 1 + 1 * u.val = u.val; rw [e2]; omega

/-- The bias block of point t, at local expert k: the argument's row 8t + k. -/
theorem iblk2_apply (c : Dev nD) (t : Fin cfg0.N) (k : Fin 8) (u : Fin 1) (q : Fin 512) (e : Fin 256) (he : e.val = 8 * t.val + k.val) :
    (iblk m c 2 t : Vec Ideal S8x1x512 .f32) (ix3 k u q) = m ((c : Thread nD τ).loc main_arg3) (ix2 e q) := by
  obtain ⟨-, -, -, -, -, -, e0, e1, e2, -⟩ := idx_facts t
  unfold iblk
  rw [View.read_apply]
  show V m c main_v1 (((cfg0.win 2).blk t).view.emb (ix3 k u q)) = _
  rw [← V_main_v1_apply m c e u q]
  refine congrArg (V m c main_v1) (funext fun a => Fin.ext ?_)
  match a with
  | ⟨0, _⟩ => show win0_2.index t (0 : Fin 3) * 8 + 1 * k.val = e.val; rw [e0, he]; omega
  | ⟨1, _⟩ => show win0_2.index t (1 : Fin 3) * 1 + 1 * u.val = u.val; rw [e1]; omega
  | ⟨2, _⟩ => show win0_2.index t (2 : Fin 3) * 512 + 1 * q.val = q.val; rw [e2]; omega

/-- The weight block of point t, at local expert k: the argument's matrix 8t + k. -/
theorem iblk3_apply (c : Dev nD) (t : Fin cfg0.N) (k : Fin 8) (p q : Fin 512) (e : Fin 256) (he : e.val = 8 * t.val + k.val) :
    (iblk m c 3 t : Vec Ideal S8x512x512 .f32) (ix3 k p q) = m ((c : Thread nD τ).loc main_arg2) (ix3 e p q) := by
  obtain ⟨-, -, -, -, -, -, -, -, -, e0, e1, e2, -⟩ := idx_facts t
  unfold iblk
  rw [View.read_apply]
  show V m c main_arg2 (((cfg0.win 3).blk t).view.emb (ix3 k p q)) = _
  rw [← V_main_arg2 m c]
  refine congrArg (V m c main_arg2) (funext fun a => Fin.ext ?_)
  match a with
  | ⟨0, _⟩ => show win0_3.index t (0 : Fin 3) * 8 + 1 * k.val = e.val; rw [e0, he]; omega
  | ⟨1, _⟩ => show win0_3.index t (1 : Fin 3) * 512 + 1 * p.val = p.val; rw [e1]; omega
  | ⟨2, _⟩ => show win0_3.index t (2 : Fin 3) * 512 + 1 * q.val = q.val; rw [e2]; omega

/-- The resident x block is the argument. -/
theorem iblk0_apply (c : Dev nD) (t : Fin cfg0.N) (b : Fin 256) (p : Fin 512) :
    (iblk m c 0 t : Vec Ideal S256x512 .f32) (ix2 b p) = m ((c : Thread nD τ).loc main_arg0) (ix2 b p) := by
  obtain ⟨-, -, -, -, -, -, -, -, -, -, -, -, e0, e1, -⟩ := idx_facts t
  unfold iblk
  rw [View.read_apply]
  show V m c main_arg0 (((cfg0.win 0).blk t).view.emb (ix2 b p)) = _
  rw [← V_main_arg0 m c]
  refine congrArg (V m c main_arg0) (funext fun a => Fin.ext ?_)
  match a with
  | ⟨0, _⟩ => show win0_0.index t (0 : Fin 2) * 256 + 1 * b.val = b.val; rw [e0]; omega
  | ⟨1, _⟩ => show win0_0.index t (1 : Fin 2) * 512 + 1 * p.val = p.val; rw [e1]; omega

/-- The resident shared weights to 200 units. -/
theorem iblk4_apply (c : Dev nD) (t : Fin cfg0.N) (p : Fin 512) (s : Fin 200) :
    (iblk m c 4 t : Vec Ideal S512x200 .bf16) (ix2 p s) = m ((c : Thread nD τ).loc main_arg4) (ix2 p s) := by
  obtain ⟨-, -, -, -, -, -, -, -, -, -, -, -, -, -, e0, e1, -⟩ := idx_facts t
  unfold iblk
  rw [View.read_apply]
  show V m c main_v2 (((cfg0.win 4).blk t).view.emb (ix2 p s)) = _
  refine Eq.trans ?_ (congrFun (V_main_v2 m c) (ix2 p s))
  refine congrArg (V m c main_v2) (funext fun a => Fin.ext ?_)
  match a with
  | ⟨0, _⟩ => show win0_4.index t (0 : Fin 2) * 512 + 1 * p.val = p.val; rw [e0]; omega
  | ⟨1, _⟩ => show win0_4.index t (1 : Fin 2) * 200 + 1 * s.val = s.val; rw [e1]; omega

theorem iblk5_apply (c : Dev nD) (t : Fin cfg0.N) (s : Fin 200) :
    (iblk m c 5 t : Vec Ideal S200 .f32) (ix1 s) = m ((c : Thread nD τ).loc main_arg5) (ix1 s) := by
  obtain ⟨-, -, -, -, -, -, -, -, -, -, -, -, -, -, -, -, e0, -⟩ := idx_facts t
  unfold iblk
  rw [View.read_apply]
  show V m c main_arg5 (((cfg0.win 5).blk t).view.emb (ix1 s)) = _
  rw [← V_main_arg5 m c]
  refine congrArg (V m c main_arg5) (funext fun a => Fin.ext ?_)
  match a with
  | ⟨0, _⟩ => show win0_5.index t (0 : Fin 1) * 200 + 1 * s.val = s.val; rw [e0]; omega

/-- The resident shared weights to 20 units. -/
theorem iblk6_apply (c : Dev nD) (t : Fin cfg0.N) (s : Fin 200) (r : Fin 20) :
    (iblk m c 6 t : Vec Ideal S200x20 .bf16) (ix2 s r) = m ((c : Thread nD τ).loc main_arg6) (ix2 s r) := by
  obtain ⟨-, -, -, -, -, -, -, -, -, -, -, -, -, -, -, -, -, e0, e1, -⟩ := idx_facts t
  unfold iblk
  rw [View.read_apply]
  show V m c main_v3 (((cfg0.win 6).blk t).view.emb (ix2 s r)) = _
  refine Eq.trans ?_ (congrFun (V_main_v3 m c) (ix2 s r))
  refine congrArg (V m c main_v3) (funext fun a => Fin.ext ?_)
  match a with
  | ⟨0, _⟩ => show win0_6.index t (0 : Fin 2) * 200 + 1 * s.val = s.val; rw [e0]; omega
  | ⟨1, _⟩ => show win0_6.index t (1 : Fin 2) * 20 + 1 * r.val = r.val; rw [e1]; omega

theorem iblk7_apply (c : Dev nD) (t : Fin cfg0.N) (r : Fin 20) :
    (iblk m c 7 t : Vec Ideal S20 .f32) (ix1 r) = m ((c : Thread nD τ).loc main_arg7) (ix1 r) := by
  obtain ⟨-, -, -, -, -, -, -, -, -, -, -, -, -, -, -, -, -, -, -, e0, -⟩ := idx_facts t
  unfold iblk
  rw [View.read_apply]
  show V m c main_arg7 (((cfg0.win 7).blk t).view.emb (ix1 r)) = _
  rw [← V_main_arg7 m c]
  refine congrArg (V m c main_arg7) (funext fun a => Fin.ext ?_)
  match a with
  | ⟨0, _⟩ => show win0_7.index t (0 : Fin 1) * 20 + 1 * r.val = r.val; rw [e0]; omega

/-- The resident shared weights to the two logits. -/
theorem iblk8_apply (c : Dev nD) (t : Fin cfg0.N) (r : Fin 20) (l : Fin 2) :
    (iblk m c 8 t : Vec Ideal S20x2 .bf16) (ix2 r l) = m ((c : Thread nD τ).loc main_arg8) (ix2 r l) := by
  obtain ⟨-, -, -, -, -, -, -, -, -, -, -, -, -, -, -, -, -, -, -, -, e0, e1, -⟩ := idx_facts t
  unfold iblk
  rw [View.read_apply]
  show V m c main_v4 (((cfg0.win 8).blk t).view.emb (ix2 r l)) = _
  refine Eq.trans ?_ (congrFun (V_main_v4 m c) (ix2 r l))
  refine congrArg (V m c main_v4) (funext fun a => Fin.ext ?_)
  match a with
  | ⟨0, _⟩ => show win0_8.index t (0 : Fin 2) * 20 + 1 * r.val = r.val; rw [e0]; omega
  | ⟨1, _⟩ => show win0_8.index t (1 : Fin 2) * 2 + 1 * l.val = l.val; rw [e1]; omega

theorem iblk9_apply (c : Dev nD) (t : Fin cfg0.N) (l : Fin 2) :
    (iblk m c 9 t : Vec Ideal S2 .f32) (ix1 l) = m ((c : Thread nD τ).loc main_arg9) (ix1 l) := by
  obtain ⟨-, -, -, -, -, -, -, -, -, -, -, -, -, -, -, -, -, -, -, -, -, -, e0⟩ := idx_facts t
  unfold iblk
  rw [View.read_apply]
  show V m c main_arg9 (((cfg0.win 9).blk t).view.emb (ix1 l)) = _
  rw [← V_main_arg9 m c]
  refine congrArg (V m c main_arg9) (funext fun a => Fin.ext ?_)
  match a with
  | ⟨0, _⟩ => show win0_9.index t (0 : Fin 1) * 2 + 1 * l.val = l.val; rw [e0]; omega

/-! ## What a point writes back, and the array -/

/-- The probabilities of the arguments as launched. -/
abbrev result (c : Dev nD) : FVec Ideal ⟨3, ![256, 256, 2]⟩ .f32 :=
  Cert.Net.probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Point t writes back block t of the probabilities: rows 8t … 8t+7 of the expert axis. -/
theorem flushed_eq (hpay : PayFact) (c : Dev nD) (t : Fin cfg0.N) :
    (dats m 0 c).flushed 10 t = ((cfg0.win 10).blk t).view.read (Elt Ideal) (result m c) := by
  have hN : cfg0.N = 32 := N_0
  obtain ⟨o0, o1, o2, -⟩ := idx_facts t
  show (cfg0.win 10).cut (grid0.coords t) ((dats m 0 c).after 10 t) = _
  rw [after0_10]
  unfold outsAt0
  refine out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) _ ?_
  intro k x
  have hk : k.val < 8 := Nat.lt_of_lt_of_eq k.isLt trips_eq
  have ht : t.val < 32 := Nat.lt_of_lt_of_eq t.isLt hN
  obtain ⟨u, b, l, rfl⟩ : ∃ (u : Fin 1) (b : Fin 256) (l : Fin 2), x = ix3 u b l := ⟨x 0, x 1, x 2, eq_ix3 x⟩
  have q1 := k0_off1_eq k
  have q2 := k0_off2_eq k
  have q3 := k0_off3_eq k
  have q4 := k0_off4_eq k
  refine (hpay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨8 * t.val + k.val, by omega⟩
    (iblk m c 0 t) (iblk m c 4 t) (iblk m c 5 t) (iblk m c 6 t) (iblk m c 7 t) (iblk m c 8 t) (iblk m c 9 t)
    (View.ld (iblk m c 1 t) (Rect.unit (s := S8x256x1) (k0_off1 k) S1x256x1.size (k0_off1_inb k)))
    (View.ld (iblk m c 3 t) (Rect.unit (s := S8x512x512) (k0_off2 k) S1x512x512.size (k0_off2_inb k)))
    (View.ld (iblk m c 2 t) (Rect.unit (s := S8x1x512) (k0_off3 k) S1x1x512.size (k0_off3_inb k)))
    (iblk0_apply m c t) (iblk4_apply m c t) (iblk5_apply m c t) (iblk6_apply m c t) (iblk7_apply m c t) (iblk8_apply m c t) (iblk9_apply m c t)
    (fun b' => ?_) (fun p q => ?_) (fun q => ?_) u b l).trans ?_
  · refine Eq.trans ?_ (iblk1_apply m c t ⟨k.val, hk⟩ b' 0 ⟨8 * t.val + k.val, by omega⟩ rfl)
    show (iblk m c 1 t : Vec Ideal S8x256x1 .f32) ((Rect.unit (s := S8x256x1) (k0_off1 k) S1x256x1.size (k0_off1_inb k)).emb (ix3 (0 : Fin 1) b' (0 : Fin 1))) = _
    refine congrArg (iblk m c 1 t : Vec Ideal S8x256x1 .f32) (funext fun a => Fin.ext ?_)
    match a with
    | ⟨0, _⟩ => show k0_off1 k 0 + 1 * 0 = k.val; rw [q1]; rfl
    | ⟨1, _⟩ => show k0_off1 k 1 + 1 * b'.val = b'.val; rw [q1]; show 0 + 1 * b'.val = b'.val; omega
    | ⟨2, _⟩ => show k0_off1 k 2 + 1 * 0 = 0; rw [q1]; rfl
  · refine Eq.trans ?_ (iblk3_apply m c t ⟨k.val, hk⟩ p q ⟨8 * t.val + k.val, by omega⟩ rfl)
    show (iblk m c 3 t : Vec Ideal S8x512x512 .f32) ((Rect.unit (s := S8x512x512) (k0_off2 k) S1x512x512.size (k0_off2_inb k)).emb (ix3 (0 : Fin 1) p q)) = _
    refine congrArg (iblk m c 3 t : Vec Ideal S8x512x512 .f32) (funext fun a => Fin.ext ?_)
    match a with
    | ⟨0, _⟩ => show k0_off2 k 0 + 1 * 0 = k.val; rw [q2]; rfl
    | ⟨1, _⟩ => show k0_off2 k 1 + 1 * p.val = p.val; rw [q2]; show 0 + 1 * p.val = p.val; omega
    | ⟨2, _⟩ => show k0_off2 k 2 + 1 * q.val = q.val; rw [q2]; show 0 + 1 * q.val = q.val; omega
  · refine Eq.trans ?_ (iblk2_apply m c t ⟨k.val, hk⟩ 0 q ⟨8 * t.val + k.val, by omega⟩ rfl)
    show (iblk m c 2 t : Vec Ideal S8x1x512 .f32) ((Rect.unit (s := S8x1x512) (k0_off3 k) S1x1x512.size (k0_off3_inb k)).emb (ix3 (0 : Fin 1) (0 : Fin 1) q)) = _
    refine congrArg (iblk m c 2 t : Vec Ideal S8x1x512 .f32) (funext fun a => Fin.ext ?_)
    match a with
    | ⟨0, _⟩ => show k0_off3 k 0 + 1 * 0 = k.val; rw [q3]; rfl
    | ⟨1, _⟩ => show k0_off3 k 1 + 1 * 0 = 0; rw [q3]; rfl
    | ⟨2, _⟩ => show k0_off3 k 2 + 1 * q.val = q.val; rw [q3]; show 0 + 1 * q.val = q.val; omega
  · rw [View.read_apply]
    refine (Cert.Net.probs_ix3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨8 * t.val + k.val, by omega⟩ b l).symm.trans ?_
    refine congrArg (result m c) (funext fun a => Fin.ext ?_)
    have hu : u.val = 0 := by omega
    match a with
    | ⟨0, _⟩ => show 8 * t.val + k.val = win0_10.index t (0 : Fin 3) * 8 + 1 * (k0_off4 k 0 + 1 * u.val); rw [o0, q4, hu]; show 8 * t.val + k.val = t.val * 8 + 1 * (k.val + 1 * 0); omega
    | ⟨1, _⟩ => show b.val = win0_10.index t (1 : Fin 3) * 256 + 1 * (k0_off4 k 1 + 1 * b.val); rw [o1, q4]; show b.val = 0 * 256 + 1 * (0 + 1 * b.val); omega
    | ⟨2, _⟩ => show l.val = win0_10.index t (2 : Fin 3) * 2 + 1 * (k0_off4 k 2 + 1 * l.val); rw [o2, q4]; show l.val = 0 * 2 + 1 * (0 + 1 * l.val); omega

/-- An index of the array is in point t's block iff its expert coordinate is among 8t … 8t+7. -/
theorem mem_blk (t : Fin cfg0.N) (i : S256x256x2.Idx) :
    i ∈ ((cfg0.win 10).blk t).view.set ↔ ∀ a : Fin 3, win0_10.index t a * S8x256x2.size a ≤ (i a).val ∧ (i a).val < win0_10.index t a * S8x256x2.size a + S8x256x2.size a := by
  show i ∈ ((View.whole main_v5).slice (win0_10.rect t)).set ↔ _
  rw [View.set_slice_whole, Rect.mem_set_unit]
  exact Iff.rfl

/-- The array after the launch holds the probabilities: expert e lies in the block of point e / 8. -/
theorem final (hpay : PayFact) (c : Dev nD) : (dats m 0 c).arrAt 10 cfg0.N = result m c := by
  have hN : cfg0.N = 32 := N_0
  refine (dats m 0 c).arrAt_eq_of_cover 10 (result m c) (fun t _ => flushed_eq m hpay c t) fun i => ?_
  have h0 : (i 0).val < 256 := (i 0).isLt
  have h1 : (i 1).val < 256 := (i 1).isLt
  have h2 : (i 2).val < 2 := (i 2).isLt
  refine ⟨⟨(i 0).val / 8, by omega⟩, flush0_10 _, ?_⟩
  obtain ⟨o0, o1, o2, -⟩ := idx_facts ⟨(i 0).val / 8, by omega⟩
  rw [mem_blk]
  intro a
  match a with
  | ⟨0, _⟩ => show win0_10.index _ (0 : Fin 3) * 8 ≤ (i 0).val ∧ (i 0).val < win0_10.index _ (0 : Fin 3) * 8 + 8; rw [o0]; show (i 0).val / 8 * 8 ≤ (i 0).val ∧ (i 0).val < (i 0).val / 8 * 8 + 8; omega
  | ⟨1, _⟩ => show win0_10.index _ (1 : Fin 3) * 256 ≤ (i 1).val ∧ (i 1).val < win0_10.index _ (1 : Fin 3) * 256 + 256; rw [o1]; omega
  | ⟨2, _⟩ => show win0_10.index _ (2 : Fin 3) * 2 ≤ (i 2).val ∧ (i 2).val < win0_10.index _ (2 : Fin 3) * 2 + 2; rw [o2]; omega

end Cert.KernelIdeal.KerValue

end
-- ==== Proof.KerRun.lean ====
/-
  The kernel's program, read. After the launch the host merges the expert and batch axes of the
  [256, 256, 2] array the launch wrote; that array holds the probabilities, so the result is the
  specification's output. The argument arrays end as they began: those a window stages are only
  read, and the one host line after the launch writes the result buffer alone.
-/
import proofs.«145716_j50182397886820_2_alg».proof.Proof.KerBlocks

set_option maxRecDepth 16384

noncomputable section

namespace Cert.KernelIdeal.KerValue

open Idealize.ShloMosaic Idealize.ShloMosaic.TcCoe Idealize.ShloMosaic.Tactic Idealize.SL.Sem Idealize.ShloMosaic.ValueIdx
open Cert.KernelIdeal Cert.KernelIdeal.Gen

/-- The result buffer after the host's last line: the launch's array, axes merged (any float instance). -/
theorem tail_eq {F : FTy → Type} [FloatOps F] (m : (ℓ : Loc nD τ sig) → Buf (Elt F) ℓ) (c : Dev nD) :
    @Eq (FVec F S65536x2 .f32) (Pipeline.afterTail₀ cfgs (dats m) 0 (V0 m) [hostOps1] c main_v6)
      (shapeCast S65536x2 ((dats m 0 c).arrAt 10 cfg0.N : FVec F S256x256x2 .f32) shapeCasts_S256x256x2_S65536x2) := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) 10
  funext i
  show shapeCast S65536x2 (Pipeline.withArrays spec0 c (V0 m c) (fun w => (dats m 0 c).arrAt w cfg0.N) (Proc.devRef .tc (Pipeline.arrRef spec0 10))) shapeCasts_S256x256x2_S65536x2 i = _
  rw [e]

variable (m : (ℓ : Loc nD τ sig) → Buf (Elt Ideal) ℓ) (ρ : Dev nD → PrngReg)

/-- Every weakly fair execution of the kernel's program ends with the result at the specification's
    output of the arguments as launched, and the arguments unchanged. -/
theorem run (hpay : PayFact) : θ_run defs (onTc (τ := τ) (main (F := Ideal))) ⟨m, fun _ => 0, ρ⟩ (fun r => ∀ c : Dev nD,
      r.2.mem ((c.tc : Thread nD τ).loc main_v6) = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) shapeCasts_S256x256x2_S65536x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_v6 (Pipeline.mem_restRefs_of main_v6 (by decide) (by decide))).trans (tail_eq m c)).trans
        (congrArg (fun P : FVec Ideal S256x256x2 .f32 => shapeCast S65536x2 P shapeCasts_S256x256x2_S65536x2) (final m hpay c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩)
    (run_main m ρ)

end Cert.KernelIdeal.KerValue

end
-- ==== Proof.KerLayout.lean ====
/-
  Operations that move or combine entries, read at an index given by its coordinates, over the
  extended reals. A column of row values spread along the rows ([a] seen as [a, 1], then [a, 1]
  repeated to [a, b]); a [1, 1, b] array seen as [b]; a matrix product into a zero accumulator as the
  plain sum over the shared axis; an affine layer (product plus a bias row repeated down the rows);
  a sum and a maximum along the rows of a two-column-or-wider matrix as a sum and a fold over the
  column coordinate; and the scaled exponential-linear unit, entry by entry.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KerLayout

open Idealize.ShloMosaic Idealize.ShloMosaic.ValueIdx

section Layout
variable {α : Type}

/-- A `[1, 1, b]` array cast to `[b]` reads, at `q`, the operand at `(0, 0, q)`. -/
theorem shapeCast_11b_b_apply {b : ℕ} (x : (⟨3, ![1, 1, b]⟩ : Shape).Idx → α)
    (h : (⟨3, ![1, 1, b]⟩ : Shape).ShapeCasts ⟨1, ![b]⟩) (q : Fin b) :
    shapeCast ⟨1, ![b]⟩ x h (ix1 q) = x (ix3 (0 : Fin 1) (0 : Fin 1) q) :=
  shapeCast_apply x h _ _ (by
    rw [Shape.rowMajor_val_three, Shape.rowMajor_val_one]
    show (0 * 1 + 0) * b + q.val = q.val
    simp only [Nat.zero_mul, Nat.zero_add])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Contraction
variable {M K N : ℕ}

/-- The dimension numbers of a plain matrix product `[M, K] × [K, N] → [M, N]`: the left operand's
    columns contracted with the right operand's rows. -/
abbrev plainDot (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row is the result's row. -/
theorem plainDot_lhs0 (i : (⟨2, ![M, N]⟩ : Shape).Idx) (q : (plainDot M K N wf).contr.Idx) :
    ((plainDot M K N wf).lhsIdx i q 0).val = (i 0).val := by
  unfold DotDims.lhsIdx
  rw [dif_neg (show ¬(0 : Fin (⟨2, ![M, K]⟩ : Shape).rank) ∈ (plainDot M K N wf).lhsBatch from List.not_mem_nil),
    dif_pos (show (0 : Fin (⟨2, ![M, K]⟩ : Shape).rank) ∈ (plainDot M K N wf).lhsNonContracting from List.mem_singleton.mpr rfl)]
  rfl

/-- The left operand's column is the contraction coordinate. -/
theorem plainDot_lhs1 (i : (⟨2, ![M, N]⟩ : Shape).Idx) (q : (plainDot M K N wf).contr.Idx) :
    ((plainDot M K N wf).lhsIdx i q 1).val = (q ⟨0, Nat.one_pos⟩).val :=
  (plainDot M K N wf).lhsIdx_val_of_single rfl i q

/-- The right operand's row is the contraction coordinate. -/
theorem plainDot_rhs0 (i : (⟨2, ![M, N]⟩ : Shape).Idx) (q : (plainDot M K N wf).contr.Idx) :
    ((plainDot M K N wf).rhsIdx i q 0).val = (q ⟨0, Nat.one_pos⟩).val :=
  (plainDot M K N wf).rhsIdx_val_of_single rfl i q

/-- The right operand's column is the result's column. -/
theorem plainDot_rhs1 (i : (⟨2, ![M, N]⟩ : Shape).Idx) (q : (plainDot M K N wf).contr.Idx) :
    ((plainDot M K N wf).rhsIdx i q 1).val = (i 1).val := by
  unfold DotDims.rhsIdx
  rw [dif_neg (show ¬(1 : Fin (⟨2, ![K, N]⟩ : Shape).rank) ∈ (plainDot M K N wf).rhsBatch from List.not_mem_nil),
    dif_pos (show (1 : Fin (⟨2, ![K, N]⟩ : Shape).rank) ∈ (plainDot M K N wf).rhsNonContracting from List.mem_singleton.mpr rfl)]
  rfl

/-- A matrix product into the zero accumulator, read at `(i, j)`: the sum over the shared axis of
    the products of the left operand's row `i` and the right operand's column `j`. -/
theorem matmul_plain_apply {φ₁ φ₂ : FTy} (prec : Option ContractPrecision)
    (lhs : FVec Ideal ⟨2, ![M, K]⟩ φ₁) (rhs : FVec Ideal ⟨2, ![K, N]⟩ φ₂) (i : Fin M) (j : Fin N) :
    matmul (plainDot M K N wf) prec lhs rhs (constant (F := Ideal) ⟨2, ![M, N]⟩ .f32 0x00000000#32) (ix2 i j)
      = ∑ k : Fin K, lhs (ix2 i k) * rhs (ix2 k j) := by
  show FloatOps.matmul (plainDot M K N wf) prec lhs rhs (constant (F := Ideal) ⟨2, ![M, N]⟩ .f32 0x00000000#32) (ix2 i j) = _
  rw [Ideal.matmul_constant_zero_apply, ← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 i j) ((contrEquiv1 (plainDot M K N wf) K rfl rfl).symm k) = ix2 i k :=
    funext fun a => Fin.ext (by
      match a with
      | ⟨0, _⟩ => exact plainDot_lhs0 wf _ _
      | ⟨1, _⟩ => exact (plainDot_lhs1 wf _ _).trans hk)
  have er : (plainDot M K N wf).rhsIdx (ix2 i j) ((contrEquiv1 (plainDot M K N wf) K rfl rfl).symm k) = ix2 k j :=
    funext fun a => Fin.ext (by
      match a with
      | ⟨0, _⟩ => exact (plainDot_rhs0 wf _ _).trans hk
      | ⟨1, _⟩ => exact plainDot_rhs1 wf _ _)
  rw [el, er]

/-- An affine layer read at `(i, j)`: the product plus the bias row's entry `j`, the bias being a
    vector seen as one row and repeated down the rows. -/
theorem layer_apply {φ₁ φ₂ : FTy} (prec : Option ContractPrecision)
    (lhs : FVec Ideal ⟨2, ![M, K]⟩ φ₁) (rhs : FVec Ideal ⟨2, ![K, N]⟩ φ₂) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (i : Fin M) (j : Fin N) :
    addf (matmul (plainDot M K N wf) prec lhs rhs (constant (F := Ideal) ⟨2, ![M, N]⟩ .f32 0x00000000#32))
        (broadcastTo ⟨2, ![M, N]⟩ (shapeCast ⟨2, ![1, N]⟩ bias hc) hb) (ix2 i j)
      = (∑ k : Fin K, lhs (ix2 i k) * rhs (ix2 k j)) + bias (ix1 j) := by
  rw [addf_apply, matmul_plain_apply, broadcastTo_1b_ab_apply, shapeCast_a_1a_apply]

end Contraction

section Rows
variable {a b : ℕ}

/-- The index of an `[a, b]` array over row `r` with column coordinate `k` is `(r, k)`. -/
theorem lift_row (h : Shape.Reduces ⟨2, ![a, b]⟩ [1] ⟨1, ![a]⟩) (r : Fin a) (k : Fin b) :
    h.lift (ix1 r) k = ix2 r k :=
  funext fun c => Fin.ext (by
    match c with
    | ⟨0, _⟩ => rfl
    | ⟨1, _⟩ => rfl)

/-- A sum along the rows of an `[a, b]` array, read at row `r`: the sum over the columns. -/
theorem rowSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ l : Fin b, src (ix2 r l) :=
  (Ideal.multiReduction_add_single src 0x00000000#32 h hφ hacc (ix1 r)).trans
    (Finset.sum_congr rfl fun k _ => congrArg src (lift_row h r k))

/-- A maximum along the rows of an `[a, b]` array, read at row `r`: the fold of `max` over the
    columns from the accumulator's value (minus infinity). -/
theorem rowMax_apply (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = (Finset.univ : Finset (Fin b)).fold max (Ideal.ofBits .f32 0xFF800000#32) (fun l => src (ix2 r l)) :=
  (Ideal.multiReduction_maximumf_single src 0xFF800000#32 h hφ hacc (ix1 r)).trans
    (congrArg (fun f => (Finset.univ : Finset (Fin b)).fold max (Ideal.ofBits .f32 0xFF800000#32) f)
      (funext fun k => congrArg src (lift_row h r k)))

end Rows

end Cert.KerLayout

end
-- ==== Proof.KerPre.lean ====
/-
  What one loop trip hands to its last stage, read at an index. The generated payloads spell the
  body's arithmetic one operation at a time; here four of them are read at a row b and a unit t over
  the extended reals: the pre-activation of the 20-unit layer (the row of x scaled by the expert's
  magnification, the expert's own affine layer, the shared 200-unit layer through the unit, the
  shared affine layer to 20), its comparison with zero, its exponential minus one, and the splat
  constant alpha — the four values the unit after the 20-unit layer is assembled from.
-/
import proofs.«145716_j50182397886820_2_alg».proof.Proof.KerTrip
import proofs.«145716_j50182397886820_2_alg».proof.Proof.Net
import proofs.«145716_j50182397886820_2_alg».proof.Proof.KerLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerValue

open Idealize.ShloMosaic Idealize.ShloMosaic.ValueIdx
open Cert.KernelIdeal Cert.KernelIdeal.Gen Cert.KerLayout

/-- The unit as the body computes it — scale * (z where z > 0, else alpha * (e^z - the word of 1.0)) —
    is the network's: that word is the extended real 1. -/
theorem selu_word (z : EReal) :
    Ideal.ofBits .f32 0x3F867D5F#32 * Scalar.select (Ideal.cmp .ogt z (Ideal.ofBits .f32 0x00000000#32)) z
      (Ideal.ofBits .f32 0x3FD62D7D#32 * (Ideal.exp z - Ideal.ofBits .f32 0x3F800000#32)) = Cert.Net.selu z := by
  unfold Cert.Net.selu
  rw [show Ideal.ofBits .f32 0x3F800000#32 = 1 from IdealRules.sign_bit.ideal_onePat .f32]

/-- The pre-activation of the 20-unit layer at row b, unit t: the sum over the 200 shared units of
    the network's `share` times the weight, plus the bias. Read from the outside in: each affine
    layer is a matrix product into the zero accumulator plus a bias row; the 200-unit layer's
    operand passes through the unit; the innermost operand is the row of x scaled by the
    magnification column, which a column cast and a repeat along the row spread over the 512 inputs. -/
theorem pay4_apply
    (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (e : Fin 256)
    (v0 : Vec Ideal S256x512 .f32) (v1 : Vec Ideal S512x200 .bf16) (v3 : Vec Ideal S200 .f32) (v4 : Vec Ideal S200x20 .bf16)
    (v6 : Vec Ideal S20 .f32)
    (l2 : Vec Ideal S1x256x1 .f32) (l4 : Vec Ideal S1x512x512 .f32) (l3 : Vec Ideal S1x1x512 .f32)
    (h0 : ∀ (b : Fin 256) (p : Fin 512), v0 (ix2 b p) = x (ix2 b p))
    (h1 : ∀ (p : Fin 512) (s : Fin 200), v1 (ix2 p s) = wsh (ix2 p s))
    (h3 : ∀ s : Fin 200, v3 (ix1 s) = bsh (ix1 s))
    (h4 : ∀ (s : Fin 200) (t : Fin 20), v4 (ix2 s t) = w1 (ix2 s t))
    (h6 : ∀ t : Fin 20, v6 (ix1 t) = b1 (ix1 t))
    (hl2 : ∀ b : Fin 256, l2 (ix3 (0 : Fin 1) b (0 : Fin 1)) = mag (ix2 e b))
    (hl4 : ∀ p q : Fin 512, l4 (ix3 (0 : Fin 1) p q) = wpre (ix3 e p q))
    (hl3 : ∀ q : Fin 512, l3 (ix3 (0 : Fin 1) (0 : Fin 1) q) = bpre (ix2 e q))
    (b : Fin 256) (t : Fin 20) :
    k0_pay4 (F := Ideal) v0 (k0_pay1 v1) v3 (k0_pay2 v4) v6 l2 l4 l3 (ix2 b t)
      = (∑ s : Fin 200, Cert.Net.share x mag wpre bpre wsh bsh e b s * w1 (ix2 s t)) + b1 (ix1 t) := by
  unfold k0_pay4
  -- the affine layer to 20 units
  refine (layer_apply _ none _ _ _ _ _ b t).trans ?_
  refine congrArg₂ (· + ·) (Finset.sum_congr rfl fun s _ => congrArg₂ (· * ·) ?_ ?_) (h6 t)
  · -- the unit over the 200-unit layer's pre-activation
    refine (selu_word _).trans (congrArg Cert.Net.selu ?_)
    -- the affine layer to 200 units
    refine (layer_apply _ none _ _ _ _ _ b s).trans ?_
    refine congrArg₂ (· + ·) (Finset.sum_congr rfl fun p _ => congrArg₂ (· * ·) ?_ ?_) (h3 s)
    · -- the expert's own layer
      refine (layer_apply _ none _ _ _ _ _ b p).trans ?_
      refine congrArg₂ (· + ·) (Finset.sum_congr rfl fun p' _ => congrArg₂ (· * ·) ?_ ?_) ?_
      · -- the row of x scaled by the magnification
        refine congrArg₂ (· * ·) ?_ (h0 b p')
        exact (broadcastTo_a1_ab_apply _ _ b p').trans ((shapeCast_1ab_ab_apply _ _ b (0 : Fin 1)).trans (hl2 b))
      · exact (shapeCast_1ab_ab_apply _ _ p' p).trans (hl4 p' p)
      · exact (shapeCast_11b_b_apply _ _ p).trans (hl3 p)
    · exact (congrFun (shapeCast_self v1 _) (ix2 p s)).trans (h1 p s)
  · exact (congrFun (shapeCast_self v4 _) (ix2 s t)).trans (h4 s t)

/-- The comparison "pre-activation > 0" at row b, unit t. -/
theorem pay5_apply
    (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (e : Fin 256)
    (v0 : Vec Ideal S256x512 .f32) (v1 : Vec Ideal S512x200 .bf16) (v3 : Vec Ideal S200 .f32) (v4 : Vec Ideal S200x20 .bf16)
    (v6 : Vec Ideal S20 .f32)
    (l2 : Vec Ideal S1x256x1 .f32) (l4 : Vec Ideal S1x512x512 .f32) (l3 : Vec Ideal S1x1x512 .f32)
    (h0 : ∀ (b : Fin 256) (p : Fin 512), v0 (ix2 b p) = x (ix2 b p))
    (h1 : ∀ (p : Fin 512) (s : Fin 200), v1 (ix2 p s) = wsh (ix2 p s))
    (h3 : ∀ s : Fin 200, v3 (ix1 s) = bsh (ix1 s))
    (h4 : ∀ (s : Fin 200) (t : Fin 20), v4 (ix2 s t) = w1 (ix2 s t))
    (h6 : ∀ t : Fin 20, v6 (ix1 t) = b1 (ix1 t))
    (hl2 : ∀ b : Fin 256, l2 (ix3 (0 : Fin 1) b (0 : Fin 1)) = mag (ix2 e b))
    (hl4 : ∀ p q : Fin 512, l4 (ix3 (0 : Fin 1) p q) = wpre (ix3 e p q))
    (hl3 : ∀ q : Fin 512, l3 (ix3 (0 : Fin 1) (0 : Fin 1) q) = bpre (ix2 e q))
    (b : Fin 256) (t : Fin 20) :
    k0_pay5 (F := Ideal) v0 (k0_pay1 v1) v3 (k0_pay2 v4) v6 l2 l4 l3 (ix2 b t)
      = Ideal.cmp .ogt ((∑ s : Fin 200, Cert.Net.share x mag wpre bpre wsh bsh e b s * w1 (ix2 s t)) + b1 (ix1 t)) (Ideal.ofBits .f32 0x00000000#32) := by
  unfold k0_pay5
  exact congrArg (fun z => Ideal.cmp .ogt z (Ideal.ofBits .f32 0x00000000#32)) (pay4_apply x mag wpre bpre wsh bsh w1 b1 e v0 v1 v3 v4 v6 l2 l4 l3 h0 h1 h3 h4 h6 hl2 hl4 hl3 b t)

/-- e^(pre-activation) - 1 at row b, unit t: the subtracted word 0x3F800000 is the extended real 1. -/
theorem pay6_apply
    (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (e : Fin 256)
    (v0 : Vec Ideal S256x512 .f32) (v1 : Vec Ideal S512x200 .bf16) (v3 : Vec Ideal S200 .f32) (v4 : Vec Ideal S200x20 .bf16)
    (v6 : Vec Ideal S20 .f32)
    (l2 : Vec Ideal S1x256x1 .f32) (l4 : Vec Ideal S1x512x512 .f32) (l3 : Vec Ideal S1x1x512 .f32)
    (h0 : ∀ (b : Fin 256) (p : Fin 512), v0 (ix2 b p) = x (ix2 b p))
    (h1 : ∀ (p : Fin 512) (s : Fin 200), v1 (ix2 p s) = wsh (ix2 p s))
    (h3 : ∀ s : Fin 200, v3 (ix1 s) = bsh (ix1 s))
    (h4 : ∀ (s : Fin 200) (t : Fin 20), v4 (ix2 s t) = w1 (ix2 s t))
    (h6 : ∀ t : Fin 20, v6 (ix1 t) = b1 (ix1 t))
    (hl2 : ∀ b : Fin 256, l2 (ix3 (0 : Fin 1) b (0 : Fin 1)) = mag (ix2 e b))
    (hl4 : ∀ p q : Fin 512, l4 (ix3 (0 : Fin 1) p q) = wpre (ix3 e p q))
    (hl3 : ∀ q : Fin 512, l3 (ix3 (0 : Fin 1) (0 : Fin 1) q) = bpre (ix2 e q))
    (b : Fin 256) (t : Fin 20) :
    k0_pay6 (F := Ideal) v0 (k0_pay1 v1) v3 (k0_pay2 v4) v6 l2 l4 l3 (ix2 b t)
      = Ideal.exp ((∑ s : Fin 200, Cert.Net.share x mag wpre bpre wsh bsh e b s * w1 (ix2 s t)) + b1 (ix1 t)) - 1 := by
  unfold k0_pay6
  refine (congrArg (fun z => Ideal.exp z - Ideal.ofBits .f32 0x3F800000#32) (pay4_apply x mag wpre bpre wsh bsh w1 b1 e v0 v1 v3 v4 v6 l2 l4 l3 h0 h1 h3 h4 h6 hl2 hl4 hl3 b t)).trans ?_
  rw [show Ideal.ofBits .f32 0x3F800000#32 = 1 from IdealRules.sign_bit.ideal_onePat .f32]

/-- The splat of alpha reads alpha's word everywhere. -/
theorem pay7_apply (b : Fin 256) (t : Fin 20) :
    k0_pay7 (F := Ideal) (ix2 b t) = Ideal.ofBits .f32 0x3FD62D7D#32 := rfl

end Cert.KernelIdeal.KerValue

end
-- ==== Proof.KerSoftmax.lean ====
/-
  The end of one trip's arithmetic, read at an index over the extended reals: from the 20
  pre-activations of a row, the scaled exponential-linear unit, the last affine layer to the two
  logits, and their softmax taken the stable way — the row maximum (a fold of max from minus
  infinity over the two logits) subtracted, the exponentials divided by their sum. The kernel keeps
  the row maximum and the row sum as [256, 1] columns and broadcasts them back: both read, at (b, l),
  the row's value at b.
-/
import proofs.«145716_j50182397886820_2_alg».proof.Proof.Gen.KernelIdeal.Skeleton
import proofs.«145716_j50182397886820_2_alg».proof.Proof.KerLayout
import proofs.«145716_j50182397886820_2_alg».proof.Proof.Net
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerValue

open Idealize.ShloMosaic Idealize.ShloMosaic.ValueIdx
open Cert.KernelIdeal Cert.KernelIdeal.Gen Cert.KerLayout

/-- The two logits of row b from the 20 pre-activations z b · : the unit, the last affine layer. -/
def lgt (w2 : FVec Ideal ⟨2, ![20, 2]⟩ .f32) (b2 : FVec Ideal ⟨1, ![2]⟩ .f32) (z : Fin 256 → Fin 20 → EReal) (b : Fin 256) (l : Fin 2) : EReal :=
  (∑ t : Fin 20, Cert.Net.selu (z b t) * w2 (ix2 t l)) + b2 (ix1 l)

/-- Their softmax, the row maximum (a fold of max from minus infinity) subtracted first. -/
def smx (w2 : FVec Ideal ⟨2, ![20, 2]⟩ .f32) (b2 : FVec Ideal ⟨1, ![2]⟩ .f32) (z : Fin 256 → Fin 20 → EReal) (b : Fin 256) (l : Fin 2) : EReal :=
  Ideal.div (Ideal.exp (lgt w2 b2 z b l - (Finset.univ : Finset (Fin 2)).fold max (Ideal.ofBits .f32 0xFF800000#32) (fun l' => lgt w2 b2 z b l')))
    (∑ l' : Fin 2, Ideal.exp (lgt w2 b2 z b l' - (Finset.univ : Finset (Fin 2)).fold max (Ideal.ofBits .f32 0xFF800000#32) (fun l'' => lgt w2 b2 z b l'')))

/-- The specification's probabilities are that softmax of the third layer's pre-activations. -/
theorem prob_eq_smx (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (w2 : FVec Ideal ⟨2, ![20, 2]⟩ .f32) (b2 : FVec Ideal ⟨1, ![2]⟩ .f32) (e b : Fin 256) (l : Fin 2) :
    Cert.Net.prob x mag wpre bpre wsh bsh w1 b1 w2 b2 e b l
      = smx w2 b2 (fun b t => (∑ s : Fin 200, Cert.Net.share x mag wpre bpre wsh bsh e b s * w1 (ix2 s t)) + b1 (ix1 t)) b l := rfl

/-- The stable softmax over the last axis of a [256, 2] array whose entries are L b l. -/
theorem softmax_apply (v62 : FVec Ideal S256x2 .f32) (L : Fin 256 → Fin 2 → EReal)
    (h62 : ∀ (b : Fin 256) (l : Fin 2), v62 (ix2 b l) = L b l)
    (hr : S256x2.Reduces [1] S256) (hφ : FKind.Formats .f32)
    (hm : (0xFF800000#32 : BitVec 32) = FKind.maximumf.neutral .f32 hφ) (ha : (0x00000000#32 : BitVec 32) = FKind.add.neutral .f32 hφ)
    (hc : S256.ShapeCasts S256x1) (hb : S256x1.Broadcasts S256x2) (ho : S256x2.ShapeCasts S1x256x2)
    (u : Fin 1) (b : Fin 256) (l : Fin 2) :
    shapeCast S1x256x2
      (divf
        (exp (subf v62 (broadcastTo S256x2 (shapeCast S256x1 (multiReduction (F := Ideal) .maximumf [1] S256 v62 0xFF800000#32 hr hφ hm) hc) hb)))
        (broadcastTo S256x2 (shapeCast S256x1 (multiReduction (F := Ideal) .add [1] S256
          (exp (subf v62 (broadcastTo S256x2 (shapeCast S256x1 (multiReduction (F := Ideal) .maximumf [1] S256 v62 0xFF800000#32 hr hφ hm) hc) hb)))
          0x00000000#32 hr hφ ha) hc) hb))
      ho (ix3 u b l)
    = Ideal.div (Ideal.exp (L b l - (Finset.univ : Finset (Fin 2)).fold max (Ideal.ofBits .f32 0xFF800000#32) (fun l' => L b l')))
        (∑ l' : Fin 2, Ideal.exp (L b l' - (Finset.univ : Finset (Fin 2)).fold max (Ideal.ofBits .f32 0xFF800000#32) (fun l'' => L b l''))) := by
  have hmax : ∀ b : Fin 256, multiReduction (F := Ideal) .maximumf [1] S256 v62 0xFF800000#32 hr hφ hm (ix1 b)
      = (Finset.univ : Finset (Fin 2)).fold max (Ideal.ofBits .f32 0xFF800000#32) (fun l' => L b l') := fun b =>
    (rowMax_apply v62 hr hφ hm b).trans
      (congrArg (fun f : Fin 2 → EReal => (Finset.univ : Finset (Fin 2)).fold max (Ideal.ofBits .f32 0xFF800000#32) f) (funext (h62 b)))
  have hcol : ∀ (M : FVec Ideal S256 .f32) (b : Fin 256) (l : Fin 2),
      broadcastTo S256x2 (shapeCast S256x1 M hc) hb (ix2 b l) = M (ix1 b) := fun M b l =>
    (broadcastTo_a1_ab_apply _ hb b l).trans (shapeCast_a_a1_apply M hc b 0)
  have he : ∀ (b : Fin 256) (l : Fin 2),
      exp (subf v62 (broadcastTo S256x2 (shapeCast S256x1 (multiReduction (F := Ideal) .maximumf [1] S256 v62 0xFF800000#32 hr hφ hm) hc) hb)) (ix2 b l)
        = Ideal.exp (L b l - (Finset.univ : Finset (Fin 2)).fold max (Ideal.ofBits .f32 0xFF800000#32) (fun l' => L b l')) := fun b l => by
    show Ideal.exp (v62 (ix2 b l) - broadcastTo S256x2 (shapeCast S256x1 (multiReduction (F := Ideal) .maximumf [1] S256 v62 0xFF800000#32 hr hφ hm) hc) hb (ix2 b l)) = _
    rw [h62, hcol, hmax]
  refine (shapeCast_ab_1ab_apply _ ho u b l).trans ?_
  show Ideal.div (exp (subf v62 (broadcastTo S256x2 (shapeCast S256x1 (multiReduction (F := Ideal) .maximumf [1] S256 v62 0xFF800000#32 hr hφ hm) hc) hb)) (ix2 b l))
      (broadcastTo S256x2 (shapeCast S256x1 (multiReduction (F := Ideal) .add [1] S256
          (exp (subf v62 (broadcastTo S256x2 (shapeCast S256x1 (multiReduction (F := Ideal) .maximumf [1] S256 v62 0xFF800000#32 hr hφ hm) hc) hb)))
          0x00000000#32 hr hφ ha) hc) hb (ix2 b l)) = _
  rw [he, hcol, rowSum_apply _ hr hφ ha b]
  exact congrArg (Ideal.div _) (Finset.sum_congr rfl fun l' _ => he b l')

/-- The end of a trip: the unit on the third layer's pre-activations z, the layer to the logits, the softmax. -/
theorem pay3_apply (w2 : FVec Ideal ⟨2, ![20, 2]⟩ .f32) (b2 : FVec Ideal ⟨1, ![2]⟩ .f32) (z : Fin 256 → Fin 20 → EReal)
    (v7 : Vec Ideal S20x2 .bf16) (v9 : Vec Ideal S2 .f32) (v47 : FVec Ideal S256x20 .f32) (v49 : IVec S256x20 1)
    (v52 v53 : FVec Ideal S256x20 .f32)
    (h7 : ∀ (t : Fin 20) (l : Fin 2), v7 (ix2 t l) = w2 (ix2 t l))
    (h9 : ∀ l : Fin 2, v9 (ix1 l) = b2 (ix1 l))
    (h47 : ∀ (b : Fin 256) (t : Fin 20), v47 (ix2 b t) = z b t)
    (h49 : ∀ (b : Fin 256) (t : Fin 20), v49 (ix2 b t) = Ideal.cmp .ogt (z b t) (Ideal.ofBits .f32 0x00000000#32))
    (h52 : ∀ (b : Fin 256) (t : Fin 20), v52 (ix2 b t) = Ideal.exp (z b t) - 1)
    (h53 : ∀ (b : Fin 256) (t : Fin 20), v53 (ix2 b t) = Ideal.ofBits .f32 0x3FD62D7D#32)
    (u : Fin 1) (b : Fin 256) (l : Fin 2) :
    k0_pay3 (F := Ideal) v7 v9 v47 v49 v52 v53 (ix3 u b l) = smx w2 b2 z b l := by
  unfold k0_pay3
  refine (softmax_apply _ (lgt w2 b2 z) (fun b' l' => ?_) _ _ _ _ _ _ _ u b l)
  refine (layer_apply _ none _ _ v9 _ _ b' l').trans ?_
  unfold lgt
  refine congrArg₂ (· + ·) (Finset.sum_congr rfl fun t _ => ?_) (h9 l')
  refine congrArg₂ (· * ·) ?_ ?_
  · show Ideal.ofBits .f32 0x3F867D5F#32 * Scalar.select (v49 (ix2 b' t)) (v47 (ix2 b' t)) (v53 (ix2 b' t) * v52 (ix2 b' t)) = _
    rw [h47, h49, h52, h53]
    rfl
  · rw [shapeCast_self]
    exact h7 t l'

end Cert.KernelIdeal.KerValue

end
-- ==== Proof.KerPay.lean ====
/-
  One loop trip's slab read at an index: the network's probability. The slab is the last stage (the
  unit after the 20-unit layer, the affine layer to the two logits, their softmax) applied to four
  values computed before it; each of the four, read at a row and a unit, is the network's
  pre-activation of the 20-unit layer, its comparison with zero, its exponential minus one and the
  constant alpha; and the last stage over those is the softmax of the network's logits.
-/
import proofs.«145716_j50182397886820_2_alg».proof.Proof.KerTrip
import proofs.«145716_j50182397886820_2_alg».proof.Proof.Net
import proofs.«145716_j50182397886820_2_alg».proof.Proof.KerLayout
import proofs.«145716_j50182397886820_2_alg».proof.Proof.KerPre
import proofs.«145716_j50182397886820_2_alg».proof.Proof.KerSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerValue

open Idealize.ShloMosaic Idealize.ShloMosaic.ValueIdx
open Cert.KernelIdeal Cert.KernelIdeal.Gen Cert.KerLayout

/-- The slab of expert e's trip at (u, b, l) is the network's probability for expert e, batch row b,
    class l, the resident operands and the trip's three loads being the network's arrays entry by entry. -/
theorem tripPay_apply
    (x : FVec Ideal ⟨2, ![256, 512]⟩ .f32) (mag : FVec Ideal ⟨2, ![256, 256]⟩ .f32)
    (wpre : FVec Ideal ⟨3, ![256, 512, 512]⟩ .f32) (bpre : FVec Ideal ⟨2, ![256, 512]⟩ .f32)
    (wsh : FVec Ideal ⟨2, ![512, 200]⟩ .f32) (bsh : FVec Ideal ⟨1, ![200]⟩ .f32)
    (w1 : FVec Ideal ⟨2, ![200, 20]⟩ .f32) (b1 : FVec Ideal ⟨1, ![20]⟩ .f32)
    (w2 : FVec Ideal ⟨2, ![20, 2]⟩ .f32) (b2 : FVec Ideal ⟨1, ![2]⟩ .f32)
    (e : Fin 256)
    (v0 : Vec Ideal S256x512 .f32) (v1 : Vec Ideal S512x200 .bf16) (v3 : Vec Ideal S200 .f32) (v4 : Vec Ideal S200x20 .bf16)
    (v6 : Vec Ideal S20 .f32) (v7 : Vec Ideal S20x2 .bf16) (v9 : Vec Ideal S2 .f32)
    (l2 : Vec Ideal S1x256x1 .f32) (l4 : Vec Ideal S1x512x512 .f32) (l3 : Vec Ideal S1x1x512 .f32)
    (h0 : ∀ (b : Fin 256) (p : Fin 512), v0 (ix2 b p) = x (ix2 b p))
    (h1 : ∀ (p : Fin 512) (s : Fin 200), v1 (ix2 p s) = wsh (ix2 p s))
    (h3 : ∀ s : Fin 200, v3 (ix1 s) = bsh (ix1 s))
    (h4 : ∀ (s : Fin 200) (t : Fin 20), v4 (ix2 s t) = w1 (ix2 s t))
    (h6 : ∀ t : Fin 20, v6 (ix1 t) = b1 (ix1 t))
    (h7 : ∀ (t : Fin 20) (l : Fin 2), v7 (ix2 t l) = w2 (ix2 t l))
    (h9 : ∀ l : Fin 2, v9 (ix1 l) = b2 (ix1 l))
    (hl2 : ∀ b : Fin 256, l2 (ix3 (0 : Fin 1) b (0 : Fin 1)) = mag (ix2 e b))
    (hl4 : ∀ p q : Fin 512, l4 (ix3 (0 : Fin 1) p q) = wpre (ix3 e p q))
    (hl3 : ∀ q : Fin 512, l3 (ix3 (0 : Fin 1) (0 : Fin 1) q) = bpre (ix2 e q))
    (u : Fin 1) (b : Fin 256) (l : Fin 2) :
    tripPay (F := Ideal) v0 v1 v3 v4 v6 v7 v9 l2 l4 l3 (ix3 u b l)
      = Cert.Net.prob x mag wpre bpre wsh bsh w1 b1 w2 b2 e b l := by
  unfold tripPay
  refine (pay3_apply w2 b2
    (fun b t => (∑ s : Fin 200, Cert.Net.share x mag wpre bpre wsh bsh e b s * w1 (ix2 s t)) + b1 (ix1 t))
    v7 v9 _ _ _ _ h7 h9
    (fun b t => pay4_apply x mag wpre bpre wsh bsh w1 b1 e v0 v1 v3 v4 v6 l2 l4 l3 h0 h1 h3 h4 h6 hl2 hl4 hl3 b t)
    (fun b t => pay5_apply x mag wpre bpre wsh bsh w1 b1 e v0 v1 v3 v4 v6 l2 l4 l3 h0 h1 h3 h4 h6 hl2 hl4 hl3 b t)
    (fun b t => pay6_apply x mag wpre bpre wsh bsh w1 b1 e v0 v1 v3 v4 v6 l2 l4 l3 h0 h1 h3 h4 h6 hl2 hl4 hl3 b t)
    (fun b t => pay7_apply b t) u b l).trans ?_
  exact (prob_eq_smx x mag wpre bpre wsh bsh w1 b1 w2 b2 e b l).symm

end Cert.KernelIdeal.KerValue

end
-- ==== Proof.RefRun.lean ====
/-
  The reference program's run, read back. Its @main is a straight line of host operations once the two
  calls of the scaled exponential-linear unit are replaced by the callee's operations over the buffers each
  call names (the unit calls the exponential-linear unit, which calls the two selections): seventy-four
  operations, listed in five consecutive pieces — the affine layers up to the first unit's argument, the first
  unit, the affine layer up to the second unit's argument, the second unit, and the last affine layer with the
  softmax and the final reshape. Every weakly fair execution terminates with each buffer at the fold of the
  operations' results over the launch contents.
-/
import proofs.«145716_j50182397886820_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The affine layers up to the first unit's argument: thirteen operations. -/
abbrev opsA : List (HloOp τ sig (Elt F)) :=
  [ StableHlo.unary main_arg1 main_v0 (broadcastInDim S256x256x1 ![0, 1] bcast_S256x256_S256x256x1_0_1 : (⟨S256x256, .f32⟩ : BufTy).Contents (Elt F) → (⟨S256x256x1, .f32⟩ : BufTy).Contents (Elt F)),
    StableHlo.unary main_arg0 main_v1 (broadcastInDim S1x256x512 ![1, 2] bcast_S256x512_S1x256x512_1_2 : (⟨S256x512, .f32⟩ : BufTy).Contents (Elt F) → (⟨S1x256x512, .f32⟩ : BufTy).Contents (Elt F)),
    StableHlo.unary main_v0 main_v2 (broadcastInDim S256x256x512 ![0, 1, 2] bcast_S256x256x1_S256x256x512_0_1_2 : (⟨S256x256x1, .f32⟩ : BufTy).Contents (Elt F) → (⟨S256x256x512, .f32⟩ : BufTy).Contents (Elt F)),
    StableHlo.unary main_v1 main_v3 (broadcastInDim S256x256x512 ![0, 1, 2] bcast_S1x256x512_S256x256x512_0_1_2 : (⟨S1x256x512, .f32⟩ : BufTy).Contents (Elt F) → (⟨S256x256x512, .f32⟩ : BufTy).Contents (Elt F)),
    StableHlo.binary main_v2 main_v3 main_v4 (mulf : (⟨S256x256x512, .f32⟩ : BufTy).Contents (Elt F) → (⟨S256x256x512, .f32⟩ : BufTy).Contents (Elt F) → (⟨S256x256x512, .f32⟩ : BufTy).Contents (Elt F)),
    StableHlo.binary main_v4 main_arg2 main_v5 ((fun l r => Host.dotGeneral dot_S256x256x512_S256x512x512_S256x256x512_2_1_1_2_0_0 none l r) : (⟨S256x256x512, .f32⟩ : BufTy).Contents (Elt F) → (⟨S256x512x512, .f32⟩ : BufTy).Contents (Elt F) → (⟨S256x256x512, .f32⟩ : BufTy).Contents (Elt F)),
    StableHlo.unary main_arg3 main_v6 (broadcastInDim S256x1x512 ![0, 2] bcast_S256x512_S256x1x512_0_2 : (⟨S256x512, .f32⟩ : BufTy).Contents (Elt F) → (⟨S256x1x512, .f32⟩ : BufTy).Contents (Elt F)),
    StableHlo.unary main_v6 main_v7 (broadcastInDim S256x256x512 ![0, 1, 2] bcast_S256x1x512_S256x256x512_0_1_2 : (⟨S256x1x512, .f32⟩ : BufTy).Contents (Elt F) → (⟨S256x256x512, .f32⟩ : BufTy).Contents (Elt F)),
    StableHlo.binary main_v5 main_v7 main_v8 (addf : (⟨S256x256x512, .f32⟩ : BufTy).Contents (Elt F) → (⟨S256x256x512, .f32⟩ : BufTy).Contents (Elt F) → (⟨S256x256x512, .f32⟩ : BufTy).Contents (Elt F)),
    StableHlo.binary main_v8 main_arg4 main_v9 ((fun l r => Host.dotGeneral dot_S256x256x512_S512x200_S256x256x200_2_0_01_1_n_n none l r) : (⟨S256x256x512, .f32⟩ : BufTy).Contents (Elt F) → (⟨S512x200, .f32⟩ : BufTy).Contents (Elt F) → (⟨S256x256x200, .f32⟩ : BufTy).Contents (Elt F)),
    StableHlo.unary main_arg5 main_v10 (broadcastInDim S1x1x200 ![2] bcast_S200_S1x1x200_2 : (⟨S200, .f32⟩ : BufTy).Contents (Elt F) → (⟨S1x1x200, .f32⟩ : BufTy).Contents (Elt F)),
    StableHlo.unary main_v10 main_v11 (broadcastInDim S256x256x200 ![0, 1, 2] bcast_S1x1x200_S256x256x200_0_1_2 : (⟨S1x1x200, .f32⟩ : BufTy).Contents (Elt F) → (⟨S256x256x200, .f32⟩ : BufTy).Contents (Elt F)),
    StableHlo.binary main_v9 main_v11 main_v12 (addf : (⟨S256x256x200, .f32⟩ : BufTy).Contents (Elt F) → (⟨S256x256x200, .f32⟩ : BufTy).Contents (Elt F) → (⟨S256x256x200, .f32⟩ : BufTy).Contents (Elt F)) ]

/-- The first unit, its callees' operations in place over the call's buffers: nineteen operations. -/
abbrev opsB : List (HloOp τ sig (Elt F)) :=
  [ TRef.nullary main_call0.cst (constant S_ .f32 0x3FD62D7D#32),
    TRef.nullary main_call0.call0.cst (constant S_ .f32 0x00000000#32),
    TRef.unary main_call0.call0.cst main_call0.call0.v0 (broadcastInDim S256x256x200 ![] bcast_S_S256x256x200),
    TRef.binary (.of main_v12) main_call0.call0.v0 main_call0.call0.v1 (cmpf .ogt),
    TRef.nullary main_call0.call0.cst_0 (constant S_ .f32 0x00000000#32),
    TRef.unary main_call0.call0.cst_0 main_call0.call0.v2 (broadcastInDim S256x256x200 ![] bcast_S_S256x256x200),
    TRef.binary (.of main_v12) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S256x256x200 ![] bcast_S_S256x256x200),
    TRef.ternary main_call0.call0.v3 main_call0.call0.call0.v1 (.of main_v12) main_call0.call0.call0.v2 select,
    TRef.unary main_call0.call0.call0.v2 main_call0.call0.v5 Host.expm1,
    TRef.unary main_call0.cst main_call0.call0.v6 id,
    TRef.unary main_call0.call0.v6 main_call0.call0.v7 (broadcastInDim S256x256x200 ![] bcast_S_S256x256x200),
    TRef.binary main_call0.call0.v7 main_call0.call0.v5 main_call0.call0.v8 mulf,
    TRef.ternary main_call0.call0.v1 (.of main_v12) main_call0.call0.v8 main_call0.call0.call1.v0 select,
    TRef.nullary main_call0.cst_0 (constant S_ .f32 0x3F867D5F#32),
    TRef.unary main_call0.cst_0 main_call0.v1 (broadcastInDim S256x256x200 ![] bcast_S_S256x256x200),
    TRef.binary main_call0.v1 main_call0.call0.call1.v0 main_call0.v2 mulf ]

/-- The affine layer up to the second unit's argument: four operations. -/
abbrev opsC : List (HloOp τ sig (Elt F)) :=
  [ StableHlo.binary main_v13 main_arg6 main_v14 ((fun l r => Host.dotGeneral dot_S256x256x200_S200x20_S256x256x20_2_0_01_1_n_n none l r) : (⟨S256x256x200, .f32⟩ : BufTy).Contents (Elt F) → (⟨S200x20, .f32⟩ : BufTy).Contents (Elt F) → (⟨S256x256x20, .f32⟩ : BufTy).Contents (Elt F)),
    StableHlo.unary main_arg7 main_v15 (broadcastInDim S1x1x20 ![2] bcast_S20_S1x1x20_2 : (⟨S20, .f32⟩ : BufTy).Contents (Elt F) → (⟨S1x1x20, .f32⟩ : BufTy).Contents (Elt F)),
    StableHlo.unary main_v15 main_v16 (broadcastInDim S256x256x20 ![0, 1, 2] bcast_S1x1x20_S256x256x20_0_1_2 : (⟨S1x1x20, .f32⟩ : BufTy).Contents (Elt F) → (⟨S256x256x20, .f32⟩ : BufTy).Contents (Elt F)),
    StableHlo.binary main_v14 main_v16 main_v17 (addf : (⟨S256x256x20, .f32⟩ : BufTy).Contents (Elt F) → (⟨S256x256x20, .f32⟩ : BufTy).Contents (Elt F) → (⟨S256x256x20, .f32⟩ : BufTy).Contents (Elt F)) ]

/-- The second unit: nineteen operations. -/
abbrev opsD : List (HloOp τ sig (Elt F)) :=
  [ TRef.nullary main_call1.cst (constant S_ .f32 0x3FD62D7D#32),
    TRef.nullary main_call1.call0.cst (constant S_ .f32 0x00000000#32),
    TRef.unary main_call1.call0.cst main_call1.call0.v0 (broadcastInDim S256x256x20 ![] bcast_S_S256x256x20),
    TRef.binary (.of main_v17) main_call1.call0.v0 main_call1.call0.v1 (cmpf .ogt),
    TRef.nullary main_call1.call0.cst_0 (constant S_ .f32 0x00000000#32),
    TRef.unary main_call1.call0.cst_0 main_call1.call0.v2 (broadcastInDim S256x256x20 ![] bcast_S_S256x256x20),
    TRef.binary (.of main_v17) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S256x256x20 ![] bcast_S_S256x256x20),
    TRef.ternary main_call1.call0.v3 main_call1.call0.call0.v1 (.of main_v17) main_call1.call0.call0.v2 select,
    TRef.unary main_call1.call0.call0.v2 main_call1.call0.v5 Host.expm1,
    TRef.unary main_call1.cst main_call1.call0.v6 id,
    TRef.unary main_call1.call0.v6 main_call1.call0.v7 (broadcastInDim S256x256x20 ![] bcast_S_S256x256x20),
    TRef.binary main_call1.call0.v7 main_call1.call0.v5 main_call1.call0.v8 mulf,
    TRef.ternary main_call1.call0.v1 (.of main_v17) main_call1.call0.v8 main_call1.call0.call1.v0 select,
    TRef.nullary main_call1.cst_0 (constant S_ .f32 0x3F867D5F#32),
    TRef.unary main_call1.cst_0 main_call1.v1 (broadcastInDim S256x256x20 ![] bcast_S_S256x256x20),
    TRef.binary main_call1.v1 main_call1.call0.call1.v0 main_call1.v2 mulf ]

/-- The last affine layer, the softmax and the reshape: nineteen operations. -/
abbrev opsE : List (HloOp τ sig (Elt F)) :=
  [ StableHlo.binary main_v18 main_arg8 main_v19 ((fun l r => Host.dotGeneral dot_S256x256x20_S20x2_S256x256x2_2_0_01_1_n_n none l r) : (⟨S256x256x20, .f32⟩ : BufTy).Contents (Elt F) → (⟨S20x2, .f32⟩ : BufTy).Contents (Elt F) → (⟨S256x256x2, .f32⟩ : BufTy).Contents (Elt F)),
    StableHlo.unary main_arg9 main_v20 (broadcastInDim S1x1x2 ![2] bcast_S2_S1x1x2_2 : (⟨S2, .f32⟩ : BufTy).Contents (Elt F) → (⟨S1x1x2, .f32⟩ : BufTy).Contents (Elt F)),
    StableHlo.unary main_v20 main_v21 (broadcastInDim S256x256x2 ![0, 1, 2] bcast_S1x1x2_S256x256x2_0_1_2 : (⟨S1x1x2, .f32⟩ : BufTy).Contents (Elt F) → (⟨S256x256x2, .f32⟩ : BufTy).Contents (Elt F)),
    StableHlo.binary main_v19 main_v21 main_v22 (addf : (⟨S256x256x2, .f32⟩ : BufTy).Contents (Elt F) → (⟨S256x256x2, .f32⟩ : BufTy).Contents (Elt F) → (⟨S256x256x2, .f32⟩ : BufTy).Contents (Elt F)),
    StableHlo.nullary main_cst (constant S_ .f32 0xFF800000#32),
    StableHlo.binary main_v22 main_cst main_v23 ((fun x v => Host.reduce FloatOps.maximumf x v reducesTo_S256x256x2_S256x256_d2 h_S_) : (⟨S256x256x2, .f32⟩ : BufTy).Contents (Elt F) → (⟨S_, .f32⟩ : BufTy).Contents (Elt F) → (⟨S256x256, .f32⟩ : BufTy).Contents (Elt F)),
    StableHlo.nullary main_cst_0 (constant S_ .f32 0xFF800000#32),
    StableHlo.unary main_cst_0 main_v24 (broadcastInDim S256x256 ![] bcast_S_S256x256 : (⟨S_, .f32⟩ : BufTy).Contents (Elt F) → (⟨S256x256, .f32⟩ : BufTy).Contents (Elt F)),
    StableHlo.binary main_v24 main_v23 main_v25 (maximumf : (⟨S256x256, .f32⟩ : BufTy).Contents (Elt F) → (⟨S256x256, .f32⟩ : BufTy).Contents (Elt F) → (⟨S256x256, .f32⟩ : BufTy).Contents (Elt F)),
    StableHlo.unary main_v25 main_v26 (broadcastInDim S256x256x1 ![0, 1] bcast_S256x256_S256x256x1_0_1 : (⟨S256x256, .f32⟩ : BufTy).Contents (Elt F) → (⟨S256x256x1, .f32⟩ : BufTy).Contents (Elt F)),
    StableHlo.unary main_v26 main_v27 (broadcastInDim S256x256x2 ![0, 1, 2] bcast_S256x256x1_S256x256x2_0_1_2 : (⟨S256x256x1, .f32⟩ : BufTy).Contents (Elt F) → (⟨S256x256x2, .f32⟩ : BufTy).Contents (Elt F)),
    StableHlo.binary main_v22 main_v27 main_v28 (subf : (⟨S256x256x2, .f32⟩ : BufTy).Contents (Elt F) → (⟨S256x256x2, .f32⟩ : BufTy).Contents (Elt F) → (⟨S256x256x2, .f32⟩ : BufTy).Contents (Elt F)),
    StableHlo.unary main_v28 main_v29 (Host.exp : (⟨S256x256x2, .f32⟩ : BufTy).Contents (Elt F) → (⟨S256x256x2, .f32⟩ : BufTy).Contents (Elt F)),
    StableHlo.nullary main_cst_1 (constant S_ .f32 0x00000000#32),
    StableHlo.binary main_v29 main_cst_1 main_v30 ((fun x v => Host.reduceAdd x v reducesTo_S256x256x2_S256x256_d2 h_S_) : (⟨S256x256x2, .f32⟩ : BufTy).Contents (Elt F) → (⟨S_, .f32⟩ : BufTy).Contents (Elt F) → (⟨S256x256, .f32⟩ : BufTy).Contents (Elt F)),
    StableHlo.unary main_v30 main_v31 (broadcastInDim S256x256x1 ![0, 1] bcast_S256x256_S256x256x1_0_1 : (⟨S256x256, .f32⟩ : BufTy).Contents (Elt F) → (⟨S256x256x1, .f32⟩ : BufTy).Contents (Elt F)),
    StableHlo.unary main_v31 main_v32 (broadcastInDim S256x256x2 ![0, 1, 2] bcast_S256x256x1_S256x256x2_0_1_2 : (⟨S256x256x1, .f32⟩ : BufTy).Contents (Elt F) → (⟨S256x256x2, .f32⟩ : BufTy).Contents (Elt F)),
    StableHlo.binary main_v29 main_v32 main_v33 (Host.divf : (⟨S256x256x2, .f32⟩ : BufTy).Contents (Elt F) → (⟨S256x256x2, .f32⟩ : BufTy).Contents (Elt F) → (⟨S256x256x2, .f32⟩ : BufTy).Contents (Elt F)),
    StableHlo.reshape main_v33 main_v34 rfl shapeCasts_S256x256x2_S65536x2 ]

/-- @main's seventy-four operations, in order. -/
abbrev ops : List (HloOp τ sig (Elt F)) := opsA ++ (opsB ++ (opsC ++ (opsD ++ opsE)))

/-- The same as one literal list. -/
abbrev opsFlat : List (HloOp τ sig (Elt F)) :=
  [ StableHlo.unary main_arg1 main_v0 (broadcastInDim S256x256x1 ![0, 1] bcast_S256x256_S256x256x1_0_1 : (⟨S256x256, .f32⟩ : BufTy).Contents (Elt F) → (⟨S256x256x1, .f32⟩ : BufTy).Contents (Elt F)),
    StableHlo.unary main_arg0 main_v1 (broadcastInDim S1x256x512 ![1, 2] bcast_S256x512_S1x256x512_1_2 : (⟨S256x512, .f32⟩ : BufTy).Contents (Elt F) → (⟨S1x256x512, .f32⟩ : BufTy).Contents (Elt F)),
    StableHlo.unary main_v0 main_v2 (broadcastInDim S256x256x512 ![0, 1, 2] bcast_S256x256x1_S256x256x512_0_1_2 : (⟨S256x256x1, .f32⟩ : BufTy).Contents (Elt F) → (⟨S256x256x512, .f32⟩ : BufTy).Contents (Elt F)),
    StableHlo.unary main_v1 main_v3 (broadcastInDim S256x256x512 ![0, 1, 2] bcast_S1x256x512_S256x256x512_0_1_2 : (⟨S1x256x512, .f32⟩ : BufTy).Contents (Elt F) → (⟨S256x256x512, .f32⟩ : BufTy).Contents (Elt F)),
    StableHlo.binary main_v2 main_v3 main_v4 (mulf : (⟨S256x256x512, .f32⟩ : BufTy).Contents (Elt F) → (⟨S256x256x512, .f32⟩ : BufTy).Contents (Elt F) → (⟨S256x256x512, .f32⟩ : BufTy).Contents (Elt F)),
    StableHlo.binary main_v4 main_arg2 main_v5 ((fun l r => Host.dotGeneral dot_S256x256x512_S256x512x512_S256x256x512_2_1_1_2_0_0 none l r) : (⟨S256x256x512, .f32⟩ : BufTy).Contents (Elt F) → (⟨S256x512x512, .f32⟩ : BufTy).Contents (Elt F) → (⟨S256x256x512, .f32⟩ : BufTy).Contents (Elt F)),
    StableHlo.unary main_arg3 main_v6 (broadcastInDim S256x1x512 ![0, 2] bcast_S256x512_S256x1x512_0_2 : (⟨S256x512, .f32⟩ : BufTy).Contents (Elt F) → (⟨S256x1x512, .f32⟩ : BufTy).Contents (Elt F)),
    StableHlo.unary main_v6 main_v7 (broadcastInDim S256x256x512 ![0, 1, 2] bcast_S256x1x512_S256x256x512_0_1_2 : (⟨S256x1x512, .f32⟩ : BufTy).Contents (Elt F) → (⟨S256x256x512, .f32⟩ : BufTy).Contents (Elt F)),
    StableHlo.binary main_v5 main_v7 main_v8 (addf : (⟨S256x256x512, .f32⟩ : BufTy).Contents (Elt F) → (⟨S256x256x512, .f32⟩ : BufTy).Contents (Elt F) → (⟨S256x256x512, .f32⟩ : BufTy).Contents (Elt F)),
    StableHlo.binary main_v8 main_arg4 main_v9 ((fun l r => Host.dotGeneral dot_S256x256x512_S512x200_S256x256x200_2_0_01_1_n_n none l r) : (⟨S256x256x512, .f32⟩ : BufTy).Contents (Elt F) → (⟨S512x200, .f32⟩ : BufTy).Contents (Elt F) → (⟨S256x256x200, .f32⟩ : BufTy).Contents (Elt F)),
    StableHlo.unary main_arg5 main_v10 (broadcastInDim S1x1x200 ![2] bcast_S200_S1x1x200_2 : (⟨S200, .f32⟩ : BufTy).Contents (Elt F) → (⟨S1x1x200, .f32⟩ : BufTy).Contents (Elt F)),
    StableHlo.unary main_v10 main_v11 (broadcastInDim S256x256x200 ![0, 1, 2] bcast_S1x1x200_S256x256x200_0_1_2 : (⟨S1x1x200, .f32⟩ : BufTy).Contents (Elt F) → (⟨S256x256x200, .f32⟩ : BufTy).Contents (Elt F)),
    StableHlo.binary main_v9 main_v11 main_v12 (addf : (⟨S256x256x200, .f32⟩ : BufTy).Contents (Elt F) → (⟨S256x256x200, .f32⟩ : BufTy).Contents (Elt F) → (⟨S256x256x200, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S256x256x200 ![] bcast_S_S256x256x200),
    TRef.binary (.of main_v12) main_call0.call0.v0 main_call0.call0.v1 (cmpf .ogt),
    TRef.nullary main_call0.call0.cst_0 (constant S_ .f32 0x00000000#32),
    TRef.unary main_call0.call0.cst_0 main_call0.call0.v2 (broadcastInDim S256x256x200 ![] bcast_S_S256x256x200),
    TRef.binary (.of main_v12) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S256x256x200 ![] bcast_S_S256x256x200),
    TRef.ternary main_call0.call0.v3 main_call0.call0.call0.v1 (.of main_v12) main_call0.call0.call0.v2 select,
    TRef.unary main_call0.call0.call0.v2 main_call0.call0.v5 Host.expm1,
    TRef.unary main_call0.cst main_call0.call0.v6 id,
    TRef.unary main_call0.call0.v6 main_call0.call0.v7 (broadcastInDim S256x256x200 ![] bcast_S_S256x256x200),
    TRef.binary main_call0.call0.v7 main_call0.call0.v5 main_call0.call0.v8 mulf,
    TRef.ternary main_call0.call0.v1 (.of main_v12) main_call0.call0.v8 main_call0.call0.call1.v0 select,
    TRef.nullary main_call0.cst_0 (constant S_ .f32 0x3F867D5F#32),
    TRef.unary main_call0.cst_0 main_call0.v1 (broadcastInDim S256x256x200 ![] bcast_S_S256x256x200),
    TRef.binary main_call0.v1 main_call0.call0.call1.v0 main_call0.v2 mulf,
    StableHlo.binary main_v13 main_arg6 main_v14 ((fun l r => Host.dotGeneral dot_S256x256x200_S200x20_S256x256x20_2_0_01_1_n_n none l r) : (⟨S256x256x200, .f32⟩ : BufTy).Contents (Elt F) → (⟨S200x20, .f32⟩ : BufTy).Contents (Elt F) → (⟨S256x256x20, .f32⟩ : BufTy).Contents (Elt F)),
    StableHlo.unary main_arg7 main_v15 (broadcastInDim S1x1x20 ![2] bcast_S20_S1x1x20_2 : (⟨S20, .f32⟩ : BufTy).Contents (Elt F) → (⟨S1x1x20, .f32⟩ : BufTy).Contents (Elt F)),
    StableHlo.unary main_v15 main_v16 (broadcastInDim S256x256x20 ![0, 1, 2] bcast_S1x1x20_S256x256x20_0_1_2 : (⟨S1x1x20, .f32⟩ : BufTy).Contents (Elt F) → (⟨S256x256x20, .f32⟩ : BufTy).Contents (Elt F)),
    StableHlo.binary main_v14 main_v16 main_v17 (addf : (⟨S256x256x20, .f32⟩ : BufTy).Contents (Elt F) → (⟨S256x256x20, .f32⟩ : BufTy).Contents (Elt F) → (⟨S256x256x20, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S256x256x20 ![] bcast_S_S256x256x20),
    TRef.binary (.of main_v17) main_call1.call0.v0 main_call1.call0.v1 (cmpf .ogt),
    TRef.nullary main_call1.call0.cst_0 (constant S_ .f32 0x00000000#32),
    TRef.unary main_call1.call0.cst_0 main_call1.call0.v2 (broadcastInDim S256x256x20 ![] bcast_S_S256x256x20),
    TRef.binary (.of main_v17) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S256x256x20 ![] bcast_S_S256x256x20),
    TRef.ternary main_call1.call0.v3 main_call1.call0.call0.v1 (.of main_v17) main_call1.call0.call0.v2 select,
    TRef.unary main_call1.call0.call0.v2 main_call1.call0.v5 Host.expm1,
    TRef.unary main_call1.cst main_call1.call0.v6 id,
    TRef.unary main_call1.call0.v6 main_call1.call0.v7 (broadcastInDim S256x256x20 ![] bcast_S_S256x256x20),
    TRef.binary main_call1.call0.v7 main_call1.call0.v5 main_call1.call0.v8 mulf,
    TRef.ternary main_call1.call0.v1 (.of main_v17) main_call1.call0.v8 main_call1.call0.call1.v0 select,
    TRef.nullary main_call1.cst_0 (constant S_ .f32 0x3F867D5F#32),
    TRef.unary main_call1.cst_0 main_call1.v1 (broadcastInDim S256x256x20 ![] bcast_S_S256x256x20),
    TRef.binary main_call1.v1 main_call1.call0.call1.v0 main_call1.v2 mulf,
    StableHlo.binary main_v18 main_arg8 main_v19 ((fun l r => Host.dotGeneral dot_S256x256x20_S20x2_S256x256x2_2_0_01_1_n_n none l r) : (⟨S256x256x20, .f32⟩ : BufTy).Contents (Elt F) → (⟨S20x2, .f32⟩ : BufTy).Contents (Elt F) → (⟨S256x256x2, .f32⟩ : BufTy).Contents (Elt F)),
    StableHlo.unary main_arg9 main_v20 (broadcastInDim S1x1x2 ![2] bcast_S2_S1x1x2_2 : (⟨S2, .f32⟩ : BufTy).Contents (Elt F) → (⟨S1x1x2, .f32⟩ : BufTy).Contents (Elt F)),
    StableHlo.unary main_v20 main_v21 (broadcastInDim S256x256x2 ![0, 1, 2] bcast_S1x1x2_S256x256x2_0_1_2 : (⟨S1x1x2, .f32⟩ : BufTy).Contents (Elt F) → (⟨S256x256x2, .f32⟩ : BufTy).Contents (Elt F)),
    StableHlo.binary main_v19 main_v21 main_v22 (addf : (⟨S256x256x2, .f32⟩ : BufTy).Contents (Elt F) → (⟨S256x256x2, .f32⟩ : BufTy).Contents (Elt F) → (⟨S256x256x2, .f32⟩ : BufTy).Contents (Elt F)),
    StableHlo.nullary main_cst (constant S_ .f32 0xFF800000#32),
    StableHlo.binary main_v22 main_cst main_v23 ((fun x v => Host.reduce FloatOps.maximumf x v reducesTo_S256x256x2_S256x256_d2 h_S_) : (⟨S256x256x2, .f32⟩ : BufTy).Contents (Elt F) → (⟨S_, .f32⟩ : BufTy).Contents (Elt F) → (⟨S256x256, .f32⟩ : BufTy).Contents (Elt F)),
    StableHlo.nullary main_cst_0 (constant S_ .f32 0xFF800000#32),
    StableHlo.unary main_cst_0 main_v24 (broadcastInDim S256x256 ![] bcast_S_S256x256 : (⟨S_, .f32⟩ : BufTy).Contents (Elt F) → (⟨S256x256, .f32⟩ : BufTy).Contents (Elt F)),
    StableHlo.binary main_v24 main_v23 main_v25 (maximumf : (⟨S256x256, .f32⟩ : BufTy).Contents (Elt F) → (⟨S256x256, .f32⟩ : BufTy).Contents (Elt F) → (⟨S256x256, .f32⟩ : BufTy).Contents (Elt F)),
    StableHlo.unary main_v25 main_v26 (broadcastInDim S256x256x1 ![0, 1] bcast_S256x256_S256x256x1_0_1 : (⟨S256x256, .f32⟩ : BufTy).Contents (Elt F) → (⟨S256x256x1, .f32⟩ : BufTy).Contents (Elt F)),
    StableHlo.unary main_v26 main_v27 (broadcastInDim S256x256x2 ![0, 1, 2] bcast_S256x256x1_S256x256x2_0_1_2 : (⟨S256x256x1, .f32⟩ : BufTy).Contents (Elt F) → (⟨S256x256x2, .f32⟩ : BufTy).Contents (Elt F)),
    StableHlo.binary main_v22 main_v27 main_v28 (subf : (⟨S256x256x2, .f32⟩ : BufTy).Contents (Elt F) → (⟨S256x256x2, .f32⟩ : BufTy).Contents (Elt F) → (⟨S256x256x2, .f32⟩ : BufTy).Contents (Elt F)),
    StableHlo.unary main_v28 main_v29 (Host.exp : (⟨S256x256x2, .f32⟩ : BufTy).Contents (Elt F) → (⟨S256x256x2, .f32⟩ : BufTy).Contents (Elt F)),
    StableHlo.nullary main_cst_1 (constant S_ .f32 0x00000000#32),
    StableHlo.binary main_v29 main_cst_1 main_v30 ((fun x v => Host.reduceAdd x v reducesTo_S256x256x2_S256x256_d2 h_S_) : (⟨S256x256x2, .f32⟩ : BufTy).Contents (Elt F) → (⟨S_, .f32⟩ : BufTy).Contents (Elt F) → (⟨S256x256, .f32⟩ : BufTy).Contents (Elt F)),
    StableHlo.unary main_v30 main_v31 (broadcastInDim S256x256x1 ![0, 1] bcast_S256x256_S256x256x1_0_1 : (⟨S256x256, .f32⟩ : BufTy).Contents (Elt F) → (⟨S256x256x1, .f32⟩ : BufTy).Contents (Elt F)),
    StableHlo.unary main_v31 main_v32 (broadcastInDim S256x256x2 ![0, 1, 2] bcast_S256x256x1_S256x256x2_0_1_2 : (⟨S256x256x1, .f32⟩ : BufTy).Contents (Elt F) → (⟨S256x256x2, .f32⟩ : BufTy).Contents (Elt F)),
    StableHlo.binary main_v29 main_v32 main_v33 (Host.divf : (⟨S256x256x2, .f32⟩ : BufTy).Contents (Elt F) → (⟨S256x256x2, .f32⟩ : BufTy).Contents (Elt F) → (⟨S256x256x2, .f32⟩ : BufTy).Contents (Elt F)),
    StableHlo.reshape main_v33 main_v34 rfl shapeCasts_S256x256x2_S65536x2 ]

theorem ops_eq_flat : (ops : List (HloOp τ sig (Elt F))) = opsFlat := rfl

/-- @main is that straight line: sequencing in the free monad of programs grafts the rest of the program onto the
    leaves of a step by structural recursion, so with the functions' definitions unfolded at their calls both
    sides compute to one chain of host steps. -/
theorem main_eq_flat (c : Dev nD) : main (F := F) c = seq opsFlat := rfl

theorem main_eq (c : Dev nD) : main (F := F) c = seq ops := (main_eq_flat c).trans (congrArg seq ops_eq_flat.symm)

theorem scopedRefs_eq : (Finset.univ.filter fun b : Ref sig .tc => b.isScoped) = ∅ := by decide
theorem scopedSems_eq : (Finset.univ.filter fun sm : SemLoc sig => sm.isScoped .tc) = ∅ := by decide

theorem opsFlat_sub : (opsFlat : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig := opsFlat_sub

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference program's result as ONE term of its ten arguments, built in named stages: each stage is the
  host operations of one stretch of @main composed, as a function of the stage before it and of the arguments
  that stretch reads. For any float values.
-/
import proofs.«145716_j50182397886820_2_alg».proof.Proof.Gen.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F] [Facts]

/-- Each batch row scaled by each expert's magnification of it: both operands broadcast to [256, 256, 512]. -/
def tScaled (x : FVec F S256x512 .f32) (mag : FVec F S256x256 .f32) : FVec F S256x256x512 .f32 :=
  mulf (broadcastInDim S256x256x512 ![0, 1, 2] bcast_S256x256x1_S256x256x512_0_1_2
          (broadcastInDim S256x256x1 ![0, 1] bcast_S256x256_S256x256x1_0_1 mag))
       (broadcastInDim S256x256x512 ![0, 1, 2] bcast_S1x256x512_S256x256x512_0_1_2
          (broadcastInDim S1x256x512 ![1, 2] bcast_S256x512_S1x256x512_1_2 x))

/-- The experts' own affine layer: the batched product with the experts' weights, plus the experts' bias. -/
def tPre (x : FVec F S256x512 .f32) (mag : FVec F S256x256 .f32) (wpre : FVec F S256x512x512 .f32)
    (bpre : FVec F S256x512 .f32) : FVec F S256x256x512 .f32 :=
  addf (Host.dotGeneral dot_S256x256x512_S256x512x512_S256x256x512_2_1_1_2_0_0 none (tScaled x mag) wpre)
       (broadcastInDim S256x256x512 ![0, 1, 2] bcast_S256x1x512_S256x256x512_0_1_2
          (broadcastInDim S256x1x512 ![0, 2] bcast_S256x512_S256x1x512_0_2 bpre))

/-- The shared affine layer to 200 units, before the unit. -/
def tZ1 (p : FVec F S256x256x512 .f32) (wsh : FVec F S512x200 .f32) (bsh : FVec F S200 .f32) : FVec F S256x256x200 .f32 :=
  addf (Host.dotGeneral dot_S256x256x512_S512x200_S256x256x200_2_0_01_1_n_n none p wsh)
       (broadcastInDim S256x256x200 ![0, 1, 2] bcast_S1x1x200_S256x256x200_0_1_2
          (broadcastInDim S1x1x200 ![2] bcast_S200_S1x1x200_2 bsh))

/-- The scaled exponential-linear unit as the program spells it, at any shape: scale * (z where z > 0, else
    alpha * expm1 (0 where z > 0, else z)), every constant a broadcast scalar. -/
def seluT (S : Shape) (hb : S_.BroadcastsInDim S (![] : Fin 0 → Fin S.rank)) (z : FVec F S .f32) : FVec F S .f32 :=
  mulf (broadcastInDim S ![] hb (constant S_ .f32 0x3F867D5F#32))
    (select (cmpf .ogt z (broadcastInDim S ![] hb (constant S_ .f32 0x00000000#32))) z
      (mulf (broadcastInDim S ![] hb (id (constant S_ .f32 0x3FD62D7D#32)))
        (Host.expm1 (select (cmpf .ogt z (broadcastInDim S ![] hb (constant S_ .f32 0x00000000#32)))
          (broadcastInDim S ![] hb (id (constant S_ .f32 0x00000000#32))) z))))

/-- The shared affine layer to 20 units, before the unit. -/
def tZ2 (h1 : FVec F S256x256x200 .f32) (w1 : FVec F S200x20 .f32) (b1 : FVec F S20 .f32) : FVec F S256x256x20 .f32 :=
  addf (Host.dotGeneral dot_S256x256x200_S200x20_S256x256x20_2_0_01_1_n_n none h1 w1)
       (broadcastInDim S256x256x20 ![0, 1, 2] bcast_S1x1x20_S256x256x20_0_1_2
          (broadcastInDim S1x1x20 ![2] bcast_S20_S1x1x20_2 b1))

/-- The two logits. -/
def tLogit (h2 : FVec F S256x256x20 .f32) (w2 : FVec F S20x2 .f32) (b2 : FVec F S2 .f32) : FVec F S256x256x2 .f32 :=
  addf (Host.dotGeneral dot_S256x256x20_S20x2_S256x256x2_2_0_01_1_n_n none h2 w2)
       (broadcastInDim S256x256x2 ![0, 1, 2] bcast_S1x1x2_S256x256x2_0_1_2
          (broadcastInDim S1x1x2 ![2] bcast_S2_S1x1x2_2 b2))

/-- The row maximum of the logits: minus infinity against the maximum over the last axis from minus infinity. -/
def tMax (l : FVec F S256x256x2 .f32) : FVec F S256x256 .f32 :=
  maximumf (broadcastInDim S256x256 ![] bcast_S_S256x256 (constant S_ .f32 0xFF800000#32))
    (Host.reduce FloatOps.maximumf l (constant S_ .f32 0xFF800000#32) reducesTo_S256x256x2_S256x256_d2 h_S_)

/-- The exponential of the logits less their row maximum. -/
def tExp (l : FVec F S256x256x2 .f32) : FVec F S256x256x2 .f32 :=
  Host.exp (subf l (broadcastInDim S256x256x2 ![0, 1, 2] bcast_S256x256x1_S256x256x2_0_1_2
    (broadcastInDim S256x256x1 ![0, 1] bcast_S256x256_S256x256x1_0_1 (tMax l))))

/-- The softmax: those exponentials over their sum along the last axis. -/
def tProb (l : FVec F S256x256x2 .f32) : FVec F S256x256x2 .f32 :=
  Host.divf (tExp l) (broadcastInDim S256x256x2 ![0, 1, 2] bcast_S256x256x1_S256x256x2_0_1_2
    (broadcastInDim S256x256x1 ![0, 1] bcast_S256x256_S256x256x1_0_1
      (Host.reduceAdd (tExp l) (constant S_ .f32 0x00000000#32) reducesTo_S256x256x2_S256x256_d2 h_S_)))

section
variable (x : FVec F S256x512 .f32) (mag : FVec F S256x256 .f32) (wpre : FVec F S256x512x512 .f32)
  (bpre : FVec F S256x512 .f32) (wsh : FVec F S512x200 .f32) (bsh : FVec F S200 .f32)
  (w1 : FVec F S200x20 .f32) (b1 : FVec F S20 .f32) (w2 : FVec F S20x2 .f32) (b2 : FVec F S2 .f32)

/-- The first unit's value: the 200 shared units. -/
def tH1 : FVec F S256x256x200 .f32 :=
  seluT S256x256x200 bcast_S_S256x256x200 (tZ1 (tPre x mag wpre bpre) wsh bsh)

/-- The second unit's value: the 20 base units. -/
def tH2 : FVec F S256x256x20 .f32 :=
  seluT S256x256x20 bcast_S_S256x256x20 (tZ2 (tH1 x mag wpre bpre wsh bsh) w1 b1)

/-- The probabilities as a [256, 256, 2] array. -/
def tProbs : FVec F S256x256x2 .f32 :=
  tProb (tLogit (tH2 x mag wpre bpre wsh bsh w1 b1) w2 b2)

/-- The program's result: the probabilities reshaped to [65536, 2]. -/
def tOut : FVec F S65536x2 .f32 :=
  shapeCast S65536x2 (tProbs x mag wpre bpre wsh bsh w1 b1 w2 b2) shapeCasts_S256x256x2_S65536x2

end

end Cert.ReferenceIdeal.RefValue

end
-- ==== Proof.RefStage.lean ====
/-
  The reference program's run, stage by stage. The fold of @main's operations over a valuation is read
  one stretch at a time: after each stretch the buffer that stretch ends in holds the stage of RefTerm.lean
  applied to what the stretch read, and the ten argument buffers hold what they held. Composed: after the
  whole line the result buffer holds the one term `tOut` of the arguments' launch contents, the arguments
  unchanged; and so every weakly fair execution of @main ends.
-/
import proofs.«145716_j50182397886820_2_alg».proof.Proof.RefRun
import proofs.«145716_j50182397886820_2_alg».proof.Proof.RefTerm

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Running two lines one after the other folds the second over the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The ten argument buffers hold in `W'` what they hold in `W`. -/
structure ArgsEq (W' W : Valuation τ sig (Elt F)) : Prop where
  a0 : W' (main_arg0 : DevRef τ sig) = W (main_arg0 : DevRef τ sig)
  a1 : W' (main_arg1 : DevRef τ sig) = W (main_arg1 : DevRef τ sig)
  a2 : W' (main_arg2 : DevRef τ sig) = W (main_arg2 : DevRef τ sig)
  a3 : W' (main_arg3 : DevRef τ sig) = W (main_arg3 : DevRef τ sig)
  a4 : W' (main_arg4 : DevRef τ sig) = W (main_arg4 : DevRef τ sig)
  a5 : W' (main_arg5 : DevRef τ sig) = W (main_arg5 : DevRef τ sig)
  a6 : W' (main_arg6 : DevRef τ sig) = W (main_arg6 : DevRef τ sig)
  a7 : W' (main_arg7 : DevRef τ sig) = W (main_arg7 : DevRef τ sig)
  a8 : W' (main_arg8 : DevRef τ sig) = W (main_arg8 : DevRef τ sig)
  a9 : W' (main_arg9 : DevRef τ sig) = W (main_arg9 : DevRef τ sig)

theorem ArgsEq.trans {W'' W' W : Valuation τ sig (Elt F)} (h₂ : ArgsEq W'' W') (h₁ : ArgsEq W' W) : ArgsEq W'' W :=
  ⟨h₂.a0.trans h₁.a0, h₂.a1.trans h₁.a1, h₂.a2.trans h₁.a2, h₂.a3.trans h₁.a3, h₂.a4.trans h₁.a4, h₂.a5.trans h₁.a5, h₂.a6.trans h₁.a6, h₂.a7.trans h₁.a7, h₂.a8.trans h₁.a8, h₂.a9.trans h₁.a9⟩

/-! ## Each stretch: what it ends in, and that it writes no argument -/

theorem endA (W : Valuation τ sig (Elt F)) :
    after opsA W (main_v12 : DevRef τ sig)
      = tZ1 (tPre (W (main_arg0 : DevRef τ sig)) (W (main_arg1 : DevRef τ sig)) (W (main_arg2 : DevRef τ sig)) (W (main_arg3 : DevRef τ sig)))
          (W (main_arg4 : DevRef τ sig)) (W (main_arg5 : DevRef τ sig)) := by
  after_results_simp
  rfl

theorem keepA (W : Valuation τ sig (Elt F)) : ArgsEq (after opsA W) W :=
  ⟨by after_results_simp, by after_results_simp, by after_results_simp, by after_results_simp, by after_results_simp, by after_results_simp, by after_results_simp, by after_results_simp, by after_results_simp, by after_results_simp⟩

theorem endB (W : Valuation τ sig (Elt F)) :
    after opsB W (main_v13 : DevRef τ sig) = seluT S256x256x200 bcast_S_S256x256x200 (W (main_v12 : DevRef τ sig)) := by
  after_results_simp
  rfl

theorem keepB (W : Valuation τ sig (Elt F)) : ArgsEq (after opsB W) W :=
  ⟨by after_results_simp, by after_results_simp, by after_results_simp, by after_results_simp, by after_results_simp, by after_results_simp, by after_results_simp, by after_results_simp, by after_results_simp, by after_results_simp⟩

theorem endC (W : Valuation τ sig (Elt F)) :
    after opsC W (main_v17 : DevRef τ sig) = tZ2 (W (main_v13 : DevRef τ sig)) (W (main_arg6 : DevRef τ sig)) (W (main_arg7 : DevRef τ sig)) := by
  after_results_simp
  rfl

theorem keepC (W : Valuation τ sig (Elt F)) : ArgsEq (after opsC W) W :=
  ⟨by after_results_simp, by after_results_simp, by after_results_simp, by after_results_simp, by after_results_simp, by after_results_simp, by after_results_simp, by after_results_simp, by after_results_simp, by after_results_simp⟩

theorem endD (W : Valuation τ sig (Elt F)) :
    after opsD W (main_v18 : DevRef τ sig) = seluT S256x256x20 bcast_S_S256x256x20 (W (main_v17 : DevRef τ sig)) := by
  after_results_simp
  rfl

theorem keepD (W : Valuation τ sig (Elt F)) : ArgsEq (after opsD W) W :=
  ⟨by after_results_simp, by after_results_simp, by after_results_simp, by after_results_simp, by after_results_simp, by after_results_simp, by after_results_simp, by after_results_simp, by after_results_simp, by after_results_simp⟩

theorem endE (W : Valuation τ sig (Elt F)) :
    after opsE W (main_v34 : DevRef τ sig)
      = shapeCast S65536x2 (tProb (tLogit (W (main_v18 : DevRef τ sig)) (W (main_arg8 : DevRef τ sig)) (W (main_arg9 : DevRef τ sig))))
          shapeCasts_S256x256x2_S65536x2 := by
  after_results_simp
  rfl

theorem keepE (W : Valuation τ sig (Elt F)) : ArgsEq (after opsE W) W :=
  ⟨by after_results_simp, by after_results_simp, by after_results_simp, by after_results_simp, by after_results_simp, by after_results_simp, by after_results_simp, by after_results_simp, by after_results_simp, by after_results_simp⟩

/-! ## The whole line -/

/-- After the whole line the arguments hold what they held. -/
theorem keep (V : Valuation τ sig (Elt F)) : ArgsEq (after ops V) V := by
  rw [ops, after_app, after_app, after_app, after_app]
  exact (keepE _).trans ((keepD _).trans ((keepC _).trans ((keepB _).trans (keepA V))))

/-- After the whole line the result buffer holds `tOut` of what the arguments held. -/
theorem after_out (V : Valuation τ sig (Elt F)) :
    after ops V (main_v34 : DevRef τ sig)
      = tOut (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig)) := by
  rw [ops, after_app, after_app, after_app, after_app]
  generalize hA : after opsA V = WA
  generalize hB : after opsB WA = WB
  generalize hC : after opsC WB = WC
  generalize hD : after opsD WC = WD
  have kA : ArgsEq WA V := hA ▸ keepA V
  have kB : ArgsEq WB WA := hB ▸ keepB WA
  have kC : ArgsEq WC WB := hC ▸ keepC WB
  have kD : ArgsEq WD WC := hD ▸ keepD WC
  have eA := endA V; rw [hA] at eA
  have eB := endB WA; rw [hB] at eB
  have eC := endC WB; rw [hC] at eC
  have eD := endD WC; rw [hD] at eD
  rw [endE WD, eD, eC, eB, eA,
    (kD.trans (kC.trans (kB.trans kA))).a8, (kD.trans (kC.trans (kB.trans kA))).a9,
    (kB.trans kA).a6, (kB.trans kA).a7]
  rfl

/-- On every device, for any float values, from any memory with zero counters: every weakly fair execution of
    @main terminates with the result buffer at `tOut` of the arguments' launch contents and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = tOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v34).trans (after_out (launchContents m c)),
       (h c main_arg0).trans (keep (launchContents m c)).a0,
       (h c main_arg1).trans (keep (launchContents m c)).a1,
       (h c main_arg2).trans (keep (launchContents m c)).a2,
       (h c main_arg3).trans (keep (launchContents m c)).a3,
       (h c main_arg4).trans (keep (launchContents m c)).a4,
       (h c main_arg5).trans (keep (launchContents m c)).a5,
       (h c main_arg6).trans (keep (launchContents m c)).a6,
       (h c main_arg7).trans (keep (launchContents m c)).a7,
       (h c main_arg8).trans (keep (launchContents m c)).a8,
       (h c main_arg9).trans (keep (launchContents m c)).a9⟩)
    (run_main m ρ)

end Cert.ReferenceIdeal.RefValue

end
-- ==== Proof.RefReadLib.lean ====
/-
  Host operations read at an index, at the ideal values: the product of a stack of matrices with ONE matrix
  as a sum over the contracted coordinate; the broadcasts the program uses, two at a time; the index a
  reduction over the last axis inserts; and the scaled exponential-linear unit as the program spells it
  against the textbook one.
-/
import proofs.«145716_j50182397886820_2_alg».proof.Proof.RefTerm
import proofs.«145716_j50182397886820_2_alg».proof.Proof.Net
import Idealize.ShloMosaic.Lib.StackMember
import Idealize.ShloMosaic.Lib.IdealHost
import Idealize.ShloMosaic.Lib.Pipeline.Value

noncomputable section

namespace Cert.ReferenceIdeal.RefValue

open Cert.ReferenceIdeal Idealize.ShloMosaic Idealize.ShloMosaic.ValueIdx
open Cert.ReferenceIdeal.Facts₀ Cert.ReferenceIdeal.Facts
open scoped BigOperators

/-! ## A stack of matrices times one matrix -/

/-- `dot_general` over [G, m, k] and [k, n] contracting axes 2 and 0, no batch axis, read at an index: the sum over
    the contracted coordinate of the products of the entries. At the ideal values. -/
theorem dotGeneral_rows_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims ⟨3, ![G, m, k]⟩ ⟨2, ![k, n]⟩ ⟨3, ![G, m, n]⟩) prec A B (ix3 g a b)
      = ∑ c : Fin k, A (ix3 g a c) * B (ix2 c b) := by
  show FloatOps.dotGeneral _ prec _ A B (ix3 g a b) = _
  rw [Ideal.dotGeneral_apply, ← Equiv.sum_comp (contrEquiv1 (⟨[2], [0], [0, 1], [1], [], [], w⟩ : DotDims ⟨3, ![G, m, k]⟩ ⟨2, ![k, n]⟩ ⟨3, ![G, m, n]⟩) k rfl rfl).symm]
  refine Finset.sum_congr rfl fun c _ => ?_
  have c3 := contrEquiv1_symm_val (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b) ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b) ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-! ## The unit -/

/-- The program's unit at an element is the textbook one: where the element is positive both select it; where it is
    not, the program's inner selection (zero where positive, else the element) is the element itself, so both take
    alpha * (e^z - 1). -/
theorem seluT_apply (S : Shape) (hb : S_.BroadcastsInDim S (![] : Fin 0 → Fin S.rank)) (z : FVec Ideal S .f32) (i : S.Idx) :
    seluT S hb z i = Cert.Net.selu (z i) := by
  show Ideal.ofBits .f32 0x3F867D5F#32 *
      Scalar.select (Ideal.cmp .ogt (z i) (Ideal.ofBits .f32 0x00000000#32)) (z i)
        (Ideal.ofBits .f32 0x3FD62D7D#32 *
          (Ideal.exp (Scalar.select (Ideal.cmp .ogt (z i) (Ideal.ofBits .f32 0x00000000#32))
            (Ideal.ofBits .f32 0x00000000#32) (z i)) - 1)) = _
  unfold Cert.Net.selu
  rcases BitVec.eq_zero_or_eq_one (Ideal.cmp .ogt (z i) (Ideal.ofBits .f32 0x00000000#32)) with h | h
  · simp only [h, select_zero]
  · simp only [h, select_one]

/-! ## The broadcasts, two at a time

Each operand reaches its full shape through an intermediate one with unit axes; read at an index, the pair is the
operand at the coordinates it keeps. -/

/-- The magnifications [256, 256] to [256, 256, 1] to [256, 256, 512]: at (e, b, p) the entry (e, b). -/
theorem bc_mag_apply {α : Type} [Facts] (v : S256x256.Idx → α) (e b : Fin 256) (p : Fin 512) :
    broadcastInDim S256x256x512 ![0, 1, 2] bcast_S256x256x1_S256x256x512_0_1_2 (broadcastInDim S256x256x1 ![0, 1] bcast_S256x256_S256x256x1_0_1 v) (ix3 e b p) = v (ix2 e b) := by
  refine (broadcastInDim_apply _ _ _ _ (ix3 e b (0 : Fin 1)) ?_).trans (broadcastInDim_apply _ _ _ _ _ ?_)
  · intro a; fin_cases a <;> first | rfl | simp
  · intro a; fin_cases a <;> first | rfl | simp

/-- The batch [256, 512] to [1, 256, 512] to [256, 256, 512]: at (e, b, p) the entry (b, p). -/
theorem bc_x_apply {α : Type} [Facts] (v : S256x512.Idx → α) (e b : Fin 256) (p : Fin 512) :
    broadcastInDim S256x256x512 ![0, 1, 2] bcast_S1x256x512_S256x256x512_0_1_2 (broadcastInDim S1x256x512 ![1, 2] bcast_S256x512_S1x256x512_1_2 v) (ix3 e b p) = v (ix2 b p) := by
  refine (broadcastInDim_apply _ _ _ _ (ix3 (0 : Fin 1) b p) ?_).trans (broadcastInDim_apply _ _ _ _ _ ?_)
  · intro a; fin_cases a <;> first | rfl | simp
  · intro a; fin_cases a <;> first | rfl | simp

/-- The experts' bias [256, 512] to [256, 1, 512] to [256, 256, 512]: at (e, b, q) the entry (e, q). -/
theorem bc_bpre_apply {α : Type} [Facts] (v : S256x512.Idx → α) (e b : Fin 256) (q : Fin 512) :
    broadcastInDim S256x256x512 ![0, 1, 2] bcast_S256x1x512_S256x256x512_0_1_2 (broadcastInDim S256x1x512 ![0, 2] bcast_S256x512_S256x1x512_0_2 v) (ix3 e b q) = v (ix2 e q) := by
  refine (broadcastInDim_apply _ _ _ _ (ix3 e (0 : Fin 1) q) ?_).trans (broadcastInDim_apply _ _ _ _ _ ?_)
  · intro a; fin_cases a <;> first | rfl | simp
  · intro a; fin_cases a <;> first | rfl | simp

/-- A bias [200] to [1, 1, 200] to [256, 256, 200]: at (e, b, s) the entry s. -/
theorem bc_bsh_apply {α : Type} [Facts] (v : S200.Idx → α) (e b : Fin 256) (s : Fin 200) :
    broadcastInDim S256x256x200 ![0, 1, 2] bcast_S1x1x200_S256x256x200_0_1_2 (broadcastInDim S1x1x200 ![2] bcast_S200_S1x1x200_2 v) (ix3 e b s) = v (ix1 s) := by
  refine (broadcastInDim_apply _ _ _ _ (ix3 (0 : Fin 1) (0 : Fin 1) s) ?_).trans (broadcastInDim_apply _ _ _ _ _ ?_)
  · intro a; fin_cases a <;> first | rfl | simp
  · intro a; fin_cases a <;> first | rfl | simp

/-- A bias [20] to [1, 1, 20] to [256, 256, 20]: at (e, b, t) the entry t. -/
theorem bc_b1_apply {α : Type} [Facts] (v : S20.Idx → α) (e b : Fin 256) (t : Fin 20) :
    broadcastInDim S256x256x20 ![0, 1, 2] bcast_S1x1x20_S256x256x20_0_1_2 (broadcastInDim S1x1x20 ![2] bcast_S20_S1x1x20_2 v) (ix3 e b t) = v (ix1 t) := by
  refine (broadcastInDim_apply _ _ _ _ (ix3 (0 : Fin 1) (0 : Fin 1) t) ?_).trans (broadcastInDim_apply _ _ _ _ _ ?_)
  · intro a; fin_cases a <;> first | rfl | simp
  · intro a; fin_cases a <;> first | rfl | simp

/-- A bias [2] to [1, 1, 2] to [256, 256, 2]: at (e, b, l) the entry l. -/
theorem bc_b2_apply {α : Type} [Facts] (v : S2.Idx → α) (e b : Fin 256) (l : Fin 2) :
    broadcastInDim S256x256x2 ![0, 1, 2] bcast_S1x1x2_S256x256x2_0_1_2 (broadcastInDim S1x1x2 ![2] bcast_S2_S1x1x2_2 v) (ix3 e b l) = v (ix1 l) := by
  refine (broadcastInDim_apply _ _ _ _ (ix3 (0 : Fin 1) (0 : Fin 1) l) ?_).trans (broadcastInDim_apply _ _ _ _ _ ?_)
  · intro a; fin_cases a <;> first | rfl | simp
  · intro a; fin_cases a <;> first | rfl | simp

/-- A per-row value [256, 256] to [256, 256, 1] to [256, 256, 2]: at (e, b, l) the entry (e, b). -/
theorem bc_row_apply {α : Type} [Facts] (v : S256x256.Idx → α) (e b : Fin 256) (l : Fin 2) :
    broadcastInDim S256x256x2 ![0, 1, 2] bcast_S256x256x1_S256x256x2_0_1_2 (broadcastInDim S256x256x1 ![0, 1] bcast_S256x256_S256x256x1_0_1 v) (ix3 e b l) = v (ix2 e b) := by
  refine (broadcastInDim_apply _ _ _ _ (ix3 e b (0 : Fin 1)) ?_).trans (broadcastInDim_apply _ _ _ _ _ ?_)
  · intro a; fin_cases a <;> first | rfl | simp
  · intro a; fin_cases a <;> first | rfl | simp

/-! ## The reductions over the last axis -/

/-- The last axis of [256, 256, 2] reduces away to [256, 256]. -/
theorem reduces_last : S256x256x2.Reduces [2] S256x256 := by decide

/-- The index a reduction over the last axis inserts its coordinate into: (e, b) with l is (e, b, l). -/
theorem lift_last (e b : Fin 256) (l : Fin 2) : reduces_last.lift (ix2 e b) l = ix3 e b l := by
  funext ax; apply Fin.ext
  match ax with
  | ⟨0, _⟩ => rfl
  | ⟨1, _⟩ => rfl
  | ⟨2, _⟩ => rfl

/-- The word of minus infinity is the least extended real. -/
theorem ofBits_neg_inf : Ideal.ofBits .f32 0xFF800000#32 = (⊥ : EReal) := by simp [Ideal.ofBits, Ideal.ieee]

/-- The host's sum over the last axis from the zero word, at (e, b): the sum of the two entries. -/
theorem reduceAdd_last_apply [Facts] (v : FVec Ideal S256x256x2 .f32) (e b : Fin 256) :
    Host.reduceAdd v (constant (F := Ideal) S_ .f32 0x00000000#32) reducesTo_S256x256x2_S256x256_d2 h_S_ (ix2 e b)
      = ∑ l : Fin 2, v (ix3 e b l) := by
  rw [hostReduceAdd_apply, Ideal.hostReduceAdd_single _ reduces_last]
  show Ideal.ofBits .f32 0x00000000#32 + ∑ l : Fin 2, v (reduces_last.lift (ix2 e b) l) = _
  rw [Ideal.ofBits_zero_f32, zero_add]
  exact Finset.sum_congr rfl fun l _ => congrArg v (lift_last e b l)

/-- The host's maximum over the last axis from minus infinity, at (e, b): the fold of max over the two entries. -/
theorem reduceMax_last_apply [Facts] (v : FVec Ideal S256x256x2 .f32) (e b : Fin 256) :
    Host.reduce (FloatOps.maximumf (F := Ideal) (φ := .f32)) v (constant (F := Ideal) S_ .f32 0xFF800000#32)
        reducesTo_S256x256x2_S256x256_d2 h_S_ (ix2 e b)
      = (Finset.univ : Finset (Fin 2)).fold max (Ideal.ofBits .f32 0xFF800000#32) (fun l => v (ix3 e b l)) := by
  rw [Host.reduce_eq_fold_single _ _ _ _ reduces_last]
  show (Finset.univ : Finset (Fin 2)).fold max (Ideal.ofBits .f32 0xFF800000#32) (v ∘ reduces_last.lift (ix2 e b)) = _
  rw [show v ∘ reduces_last.lift (ix2 e b) = fun l => v (ix3 e b l) from funext fun l => congrArg v (lift_last e b l)]
  rfl

end Cert.ReferenceIdeal.RefValue

end
-- ==== Proof.RefRead.lean ====
/-
  The reference's stages read at an index, at the ideal values: each is the network's layer of Net.lean at
  that index — the affine layers as finite sums of products, the unit by `seluT_apply`, the softmax with its
  row maximum and its sum over the two logits — and so the reference's result term is the network's result.
-/
import proofs.«145716_j50182397886820_2_alg».proof.Proof.RefReadLib

noncomputable section

namespace Cert.ReferenceIdeal.RefValue

open Cert.ReferenceIdeal Idealize.ShloMosaic Idealize.ShloMosaic.ValueIdx
open Cert.ReferenceIdeal.Facts₀ Cert.ReferenceIdeal.Facts
open scoped BigOperators

variable [Facts]

/-! ## The stages over any operand -/

theorem tScaled_apply (x : FVec Ideal S256x512 .f32) (mag : FVec Ideal S256x256 .f32) (e b : Fin 256) (p : Fin 512) :
    tScaled x mag (ix3 e b p) = mag (ix2 e b) * x (ix2 b p) := by
  unfold tScaled
  rw [mulf_apply, bc_mag_apply, bc_x_apply]

theorem tZ1_apply (p : FVec Ideal S256x256x512 .f32) (wsh : FVec Ideal S512x200 .f32) (bsh : FVec Ideal S200 .f32)
    (e b : Fin 256) (s : Fin 200) :
    tZ1 p wsh bsh (ix3 e b s) = (∑ c : Fin 512, p (ix3 e b c) * wsh (ix2 c s)) + bsh (ix1 s) := by
  unfold tZ1 dot_S256x256x512_S512x200_S256x256x200_2_0_01_1_n_n
  rw [addf_apply, bc_bsh_apply, dotGeneral_rows_apply]

theorem tZ2_apply (h1 : FVec Ideal S256x256x200 .f32) (w1 : FVec Ideal S200x20 .f32) (b1 : FVec Ideal S20 .f32)
    (e b : Fin 256) (t : Fin 20) :
    tZ2 h1 w1 b1 (ix3 e b t) = (∑ s : Fin 200, h1 (ix3 e b s) * w1 (ix2 s t)) + b1 (ix1 t) := by
  unfold tZ2 dot_S256x256x200_S200x20_S256x256x20_2_0_01_1_n_n
  rw [addf_apply, bc_b1_apply, dotGeneral_rows_apply]

theorem tLogit_apply (h2 : FVec Ideal S256x256x20 .f32) (w2 : FVec Ideal S20x2 .f32) (b2 : FVec Ideal S2 .f32)
    (e b : Fin 256) (l : Fin 2) :
    tLogit h2 w2 b2 (ix3 e b l) = (∑ t : Fin 20, h2 (ix3 e b t) * w2 (ix2 t l)) + b2 (ix1 l) := by
  unfold tLogit dot_S256x256x20_S20x2_S256x256x2_2_0_01_1_n_n
  rw [addf_apply, bc_b2_apply, dotGeneral_rows_apply]

/-- The row maximum: minus infinity against the fold is the fold. -/
theorem tMax_apply (L : FVec Ideal S256x256x2 .f32) (e b : Fin 256) :
    tMax L (ix2 e b) = (Finset.univ : Finset (Fin 2)).fold max (Ideal.ofBits .f32 0xFF800000#32) (fun l => L (ix3 e b l)) := by
  unfold tMax
  rw [maximumf_apply, reduceMax_last_apply]
  show max (Ideal.ofBits .f32 0xFF800000#32) _ = _
  exact max_eq_right (by rw [ofBits_neg_inf]; exact bot_le)

theorem tExp_apply (L : FVec Ideal S256x256x2 .f32) (e b : Fin 256) (l : Fin 2) :
    tExp L (ix3 e b l) = Ideal.exp (L (ix3 e b l) - tMax L (ix2 e b)) := by
  unfold tExp
  show Ideal.exp (subf L _ (ix3 e b l)) = _
  rw [subf_apply, bc_row_apply]

theorem tProb_apply (L : FVec Ideal S256x256x2 .f32) (e b : Fin 256) (l : Fin 2) :
    tProb L (ix3 e b l) = Ideal.div (tExp L (ix3 e b l)) (∑ l' : Fin 2, tExp L (ix3 e b l')) := by
  unfold tProb
  rw [hostDivf_apply, bc_row_apply, reduceAdd_last_apply]

/-! ## The stages of the arguments are the network's layers -/

section
variable (x : FVec Ideal S256x512 .f32) (mag : FVec Ideal S256x256 .f32) (wpre : FVec Ideal S256x512x512 .f32)
  (bpre : FVec Ideal S256x512 .f32) (wsh : FVec Ideal S512x200 .f32) (bsh : FVec Ideal S200 .f32)
  (w1 : FVec Ideal S200x20 .f32) (b1 : FVec Ideal S20 .f32) (w2 : FVec Ideal S20x2 .f32) (b2 : FVec Ideal S2 .f32)

theorem tPre_apply (e b : Fin 256) (q : Fin 512) :
    tPre x mag wpre bpre (ix3 e b q) = Cert.Net.pre x mag wpre bpre e b q := by
  unfold tPre Cert.Net.pre dot_S256x256x512_S256x512x512_S256x256x512_2_1_1_2_0_0
  rw [addf_apply, bc_bpre_apply, StackMember.dotGeneral_stack_apply]
  simp only [tScaled_apply]

theorem tH1_apply (e b : Fin 256) (s : Fin 200) :
    tH1 x mag wpre bpre wsh bsh (ix3 e b s) = Cert.Net.share x mag wpre bpre wsh bsh e b s := by
  unfold tH1 Cert.Net.share
  rw [seluT_apply, tZ1_apply]
  simp only [tPre_apply]

theorem tH2_apply (e b : Fin 256) (t : Fin 20) :
    tH2 x mag wpre bpre wsh bsh w1 b1 (ix3 e b t) = Cert.Net.base x mag wpre bpre wsh bsh w1 b1 e b t := by
  unfold tH2 Cert.Net.base
  rw [seluT_apply, tZ2_apply]
  simp only [tH1_apply]

theorem tLogits_apply (e b : Fin 256) (l : Fin 2) :
    tLogit (tH2 x mag wpre bpre wsh bsh w1 b1) w2 b2 (ix3 e b l) = Cert.Net.logit x mag wpre bpre wsh bsh w1 b1 w2 b2 e b l := by
  unfold Cert.Net.logit
  rw [tLogit_apply]
  simp only [tH2_apply]

theorem tProbs_apply (e b : Fin 256) (l : Fin 2) :
    tProbs x mag wpre bpre wsh bsh w1 b1 w2 b2 (ix3 e b l) = Cert.Net.prob x mag wpre bpre wsh bsh w1 b1 w2 b2 e b l := by
  have hl : ∀ c : Fin 2, tLogit (tH2 x mag wpre bpre wsh bsh w1 b1) w2 b2 (ix3 e b c) = Cert.Net.logit x mag wpre bpre wsh bsh w1 b1 w2 b2 e b c :=
    fun c => tLogits_apply x mag wpre bpre wsh bsh w1 b1 w2 b2 e b c
  have hm : tMax (tLogit (tH2 x mag wpre bpre wsh bsh w1 b1) w2 b2) (ix2 e b) = Cert.Net.rowMax x mag wpre bpre wsh bsh w1 b1 w2 b2 e b := by
    unfold Cert.Net.rowMax
    rw [tMax_apply]
    simp only [hl]
  have he : ∀ c : Fin 2, tExp (tLogit (tH2 x mag wpre bpre wsh bsh w1 b1) w2 b2) (ix3 e b c) = Cert.Net.expo x mag wpre bpre wsh bsh w1 b1 w2 b2 e b c := by
    intro c
    unfold Cert.Net.expo
    rw [tExp_apply, hl, hm]
  unfold tProbs Cert.Net.prob
  rw [tProb_apply]
  simp only [he]

/-- The reference's probabilities are the network's. -/
theorem tProbs_eq : tProbs x mag wpre bpre wsh bsh w1 b1 w2 b2 = Cert.Net.probs x mag wpre bpre wsh bsh w1 b1 w2 b2 := by
  funext j
  obtain ⟨e, b, l, rfl⟩ : ∃ (e b : Fin 256) (l : Fin 2), j = ix3 e b l := ⟨j 0, j 1, j 2, eq_ix3 j⟩
  rw [Cert.Net.probs_ix3, tProbs_apply]

/-- The reference's result is the network's: the same probabilities under the same reshape. -/
theorem tOut_eq (hc : S256x256x2.ShapeCasts S65536x2) : tOut x mag wpre bpre wsh bsh w1 b1 w2 b2 = Cert.Net.out x mag wpre bpre wsh bsh w1 b1 w2 b2 hc := by
  unfold tOut Cert.Net.out
  rw [tProbs_eq]

end

end Cert.ReferenceIdeal.RefValue

end
-- ==== Proof.RefValue.lean ====
/-
  The reference program's value: every weakly fair execution of its @main at the ideal values ends with the
  result buffer at the network of Net.lean applied to the ten arguments' launch contents, and the arguments
  unchanged — the run of RefStage.lean with its result term read as the network's (RefRead.lean).
-/
import proofs.«145716_j50182397886820_2_alg».proof.Proof.RefStage
import proofs.«145716_j50182397886820_2_alg».proof.Proof.RefRead

noncomputable section

namespace Cert.ReferenceIdeal.RefValue

open Cert.ReferenceIdeal Idealize.ShloMosaic Idealize.ShloMosaic.TcCoe Idealize.SL.Sem
open Cert.ReferenceIdeal.Facts₀ Cert.ReferenceIdeal.Facts

/-- On every device, at the ideal values, from any memory with zero counters: every weakly fair execution of the
    reference's @main terminates with the result at the network's output of the arguments, and the arguments unchanged. -/
theorem run [Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
        = Cert.Net.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            shapeCasts_S256x256x2_S65536x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => ⟨(h c).1.trans (tOut_eq _ _ _ _ _ _ _ _ _ _ _), (h c).2⟩) (run_term m ρ)

end Cert.ReferenceIdeal.RefValue

end
-- ==== Proof.lean ====
/-
  The certificate. Both programs compute one network (Net.lean): for each of 256 experts and 256 batch
  rows, the row of x scaled by the expert's magnification, an affine layer with the expert's own
  weights, two shared affine layers each followed by the scaled exponential-linear unit, a shared
  affine layer to two logits, and their softmax; the result is the [256, 256, 2] array of
  probabilities with its two leading axes merged.
  The kernel walks the experts eight per grid point, one per trip of a counted loop, with matrix
  products accumulated from zero and the weights passed through a format change that is the identity
  on the extended reals; the reference does the same layers as batched contractions over all experts
  at once, writes the unit with e^z - 1 as one operation on an argument made safe by a selection, and
  takes one more maximum with minus infinity. Over the extended reals these are the same function,
  operation by operation: no sum is reordered and no factor moved across one, so the inputs'
  finiteness is never used.
  The frames of the two kernel programs are the generated ones; the reference's frame is its run with
  the result dropped; the idealization rewrote nothing.
-/
import proofs.«145716_j50182397886820_2_alg».proof.Defs
import proofs.«145716_j50182397886820_2_alg».proof.Proof.Gen.Kernel.Frame
import proofs.«145716_j50182397886820_2_alg».proof.Proof.Gen.KernelIdeal.Frame
import proofs.«145716_j50182397886820_2_alg».proof.Proof.Gen.ReferenceIdeal
import proofs.«145716_j50182397886820_2_alg».proof.Proof.Gen.Pre_finite_inputs
import proofs.«145716_j50182397886820_2_alg».proof.Proof.KerRun
import proofs.«145716_j50182397886820_2_alg».proof.Proof.KerPay
import proofs.«145716_j50182397886820_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run m ρ)

/-- One trip's slab is the network's probabilities of the trip's expert. -/
theorem payFact : Cert.KernelIdeal.KerValue.PayFact :=
  fun x mag wpre bpre wsh bsh w1 b1 w2 b2 e v0 v1 v3 v4 v6 v7 v9 l2 l4 l3 h0 h1 h3 h4 h6 h7 h9 hl2 hl4 hl3 u b l =>
    Cert.KernelIdeal.KerValue.tripPay_apply x mag wpre bpre wsh bsh w1 b1 w2 b2 e v0 v1 v3 v4 v6 v7 v9 l2 l4 l3
      h0 h1 h3 h4 h6 h7 h9 hl2 hl4 hl3 u b l

/-- Both idealized programs end with the specification's output of arguments that agree. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) Cert.KernelIdeal.Facts₀.shapeCasts_S256x256x2_S65536x2,
    Cert.KernelIdeal.KerValue.run m ρ payFact, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
